-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S400 : Shape := ⟨1, ![400]⟩
abbrev S400x1 : Shape := ⟨2, ![400, 1]⟩

abbrev nBuf : Space → Nat
  | .hbm => 10
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S10000x16, .f32⟩
  | .hbm, ⟨8, _⟩ => ⟨S1x16, .f32⟩
  | .hbm, ⟨9, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S16x16, .f32⟩
  | .local _ .vmem, ⟨4, _⟩ => ⟨S400x10000, .f32⟩
  | .local _ .vmem, ⟨5, _⟩ => ⟨S400x10000, .f32⟩
  | .local _ .vmem, ⟨6, _⟩ => ⟨S400x16, .f32⟩
  | .local _ .vmem, ⟨7, _⟩ => ⟨S400x16, .f32⟩
  | .local _ .vmem, ⟨8, _⟩ => ⟨S10000x16, .f32⟩
  | .local _ .vmem, ⟨9, _⟩ => ⟨S10000x16, .f32⟩
  | .local _ .vmem, ⟨10, _⟩ => ⟨S1x16, .f32⟩
  | .local _ .vmem, ⟨11, _⟩ => ⟨S400x10000, .f32⟩
  | .local _ .vmem, ⟨12, _⟩ => ⟨S400x10000, .f32⟩
  | .local _ .vmem, ⟨13, _⟩ => ⟨S400x16, .f32⟩
  | .local _ .vmem, ⟨14, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  inb_S400x16_S400x16_0_0 : ∀ a, (![0, 0] : Fin 2 → Nat) a + S400x16.size a ≤ S400x16.size a
  h_S400x16 : 0 < S400x16.numel
  reduces_S400x16_S400 : S400x16.Reduces [1] S400
  shapeCasts_S400_S400x1 : S400.ShapeCasts S400x1
  broadcasts_S400x1_S400x16 : S400x1.Broadcasts S400x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S10000x16.size a
  hwx1_0 : ∀ i : grid1.Coords, EltTy.bits .f32 = 32 ∨ (Rect.block (s := S10000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S10000x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x16, .f32⟩
  | .hbm, ⟨33, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KbLaunch1.lean ====
/-
  The first launch: every grid point takes a block of 400 rows of the adjacency matrix and, whole, the features, the first
  weights, the first bias as one row and the second weights.  At the first point the body stores features · weights into
  a scratch buffer, which every later point reads again; at every point it stores into its output block
  max (block · scratch + bias, 0) · second weights.  So the scratch buffer is carried between points: before the first
  point it holds anything, after every point the product features · weights.  Stated at a parameter `V`: the buffer
  contents when the launch is entered.
-/
import proofs.«173850_g46162308498000_cont_sun_m_925_2_alg».proof.Proof.Gen.Kernel.Launch
import proofs.«173850_g46162308498000_cont_sun_m_925_2_alg».proof.Proof.Gen.Kernel.Skeleton
import proofs.«173850_g46162308498000_cont_sun_m_925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero offsets of every access, as a function. -/
theorem hz0 : (![0, 0] : Fin 2 → Nat) = fun _ => 0 := funext fun a => by fin_cases a <;> rfl

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid position -/

/-- The body's one condition: the grid position is the first. -/
abbrev cond0 (i : grid0.Coords) : Prop :=
  (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-! ## What the body leaves -/

/-- The scratch operand: a whole scoped buffer of the kernel's own. -/
abbrev scM : Memref sig .tc .vmem S10000x16 .f32 := Memref.whole cc0_scratch0

/-- The output block after the body, from the adjacency rows, the scratch contents, the bias row and the second weights. -/
def out0_5 (x4 : Vec F S400x10000 .f32) (s : Vec F S10000x16 .f32) (x2 : Vec F S1x16 .f32) (x3 : Vec F S16x16 .f32) : Vec F S400x16 .f32 :=
  k0_pay2 x4 s x2 x3

/-! ## The body's triple, at the first point and at a later one -/

set_option maxHeartbeats 4000000 in
/-- At the first point: the scratch at anything on entry, at features · weights on exit, and the output block computed from that. -/
theorem sound_kernel0_first (c : Dev nD) (E : Set ℕ) (i : grid0.Coords) (hc : cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S400x10000 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S16x16 .f32) (x4 : Vec F S400x10000 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4 (k0_pay1 x0 x1) x2 x3)
            ∗ owns (c : Thread nD τ) arg7 fullShare (k0_pay1 x0 x1)) -∗ K ⟨⟩))
      ⊢ wp frame (wpE (defs₀ (F := F)) Variants.none c none) E
          (cc0__pass1_kernel i arg1 harg1 arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (fun y => ⟨_, List.mem_singleton_self _, View.mem_set_unit_zero hz0 Facts₀.inb_S400x16_S400x16_0_0 y⟩)).trans ?_
    rw [View.canon_unit_zero hz0]
    sl_unfold_run_names
    simp only [View.readAt_eq_ld, View.ld_unit_zero (S := S400x10000) hz0, View.ld_unit_zero (S := S1x16) hz0, View.ld_unit_zero (S := S16x16) hz0, View.ld_unit_zero (S := S10000x128) hz0, View.ld_unit_zero (S := S128x16) hz0]
    rw [View.readCov_unit_zero (S := S10000x16) _ hz0]
    rfl
  · iexists _; isplitr
    swap; · iexact H6
    ipureintro
    sl_unfold_run_names
    refine (View.read_writes_eq_canon _ _ _ (fun y => ⟨_, List.mem_singleton_self _, View.mem_set_unit_zero hz0 Facts₀.inb_S10000x16_S10000x16_0_0 y⟩)).trans ?_
    rw [View.canon_unit_zero hz0]
    simp only [View.readAt_eq_ld, View.ld_unit_zero (S := S10000x128) hz0, View.ld_unit_zero (S := S128x16) hz0]

set_option maxHeartbeats 4000000 in
/-- At a later point: the scratch at contents `s` on entry and on exit, and the output block computed from it. -/
theorem sound_kernel0_later (c : Dev nD) (E : Set ℕ) (i : grid0.Coords) (hc : ¬cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S400x10000 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S16x16 .f32) (x4 : Vec F S400x10000 .f32)
    (s : Vec F S10000x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4 s x2 x3)
            ∗ owns (c : Thread nD τ) arg7 fullShare s) -∗ K ⟨⟩))
      ⊢ wp frame (wpE (defs₀ (F := F)) Variants.none c none) E
          (cc0__pass1_kernel i arg1 harg1 arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (fun y => ⟨_, List.mem_singleton_self _, View.mem_set_unit_zero hz0 Facts₀.inb_S400x16_S400x16_0_0 y⟩)).trans ?_
    rw [View.canon_unit_zero hz0]
    simp only [View.readAt_eq_ld, View.ld_unit_zero (S := S400x10000) hz0, View.ld_unit_zero (S := S1x16) hz0, View.ld_unit_zero (S := S16x16) hz0, View.ld_unit_zero (S := S10000x16) hz0]
    rfl
  · iexists f6; isplitr; · ipureintro; rfl
    iexact H6

/-! ## The carried scratch and the launch's invariant -/

/-- The grid's first point. -/
def t0 : Fin cfg0.N := ⟨0, by decide⟩

/-- What the scratch buffer holds after every point: the product the first point stored. -/
def S1 (c : Dev nD) : Vec F S10000x16 .f32 := k0_pay1 (iblk0 V c 0 t0) (iblk0 V c 1 t0)

/-- The scoped buffers that are neither the launch's staging buffers nor its scratch: the second launch's staging buffers,
    each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the scratch as a memref owned at some contents. -/
theorem PhiA0_eq (c : Dev nD) :
    (Pipeline.ΦA spec0 c : sProp 𝕄)
      = iprop(iprop((∃ d, owns (c : Thread nD τ) scM fullShare d) ∗ Rest0 c) ∗ (∃ r, prngReg c r)) := by
  unfold Pipeline.ΦA Rest0; rw [scopedRest0_eq]; simp only [scM, owns_whole]; try rfl

/-- The launch's invariant before position `n`: before the first point the class's (the scratch at anything); afterwards
    the scratch at the product, the rest at anything, the generator register at some state. -/
def PhiS (c : Dev nD) : ℕ → sProp 𝕄
  | 0 => Pipeline.ΦA spec0 c
  | _ + 1 => iprop(iprop(owns (c : Thread nD τ) scM fullShare (S1 V c) ∗ Rest0 c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM fullShare (S1 V c) ∗ Rest0 c) ∗ (∃ r, prngReg c r)) := rfl
theorem PhiS_pos (c : Dev nD) (n : ℕ) (hz : n ≠ 0) :
    PhiS V c n = iprop(iprop(owns (c : Thread nD τ) scM fullShare (S1 V c) ∗ Rest0 c) ∗ (∃ r, prngReg c r)) := by
  cases n with
  | zero => exact absurd rfl hz
  | succ n => rfl

/-! ## The launch's proof data -/

/-- The arrays as the launch finds them; after the body at point `t` each input's buffer at its block and the output's at
    `out0_5` of the adjacency block, the product, the bias row and the second weights; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t) (S1 V c) (iblk0 V c 2 t) (iblk0 V c 3 t)
  Φ t := PhiS V c t.val
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 4 t) (S1 V c) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' memrefs hold their blocks; at the first point the scratch comes at anything and
    goes back at the product, at a later point it comes and goes at the product. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_succ,
    after0_0, after0_1, after0_2, after0_3, after0_4, after0_5, PhiS_castSucc V c t]
  by_cases hz : t.val = 0
  · have ht : t = t0 := Fin.ext hz
    subst ht
    rw [PhiS_zero V c _ hz, PhiA0_eq]
    unfold S1
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel0_first c Set.univ (grid0.coords t0) ((hcond0 t0).mpr rfl) _ _ _ _ _ _ _ _ _ _ _ _ _ _
      (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c _ hz]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel0_later c Set.univ (grid0.coords t) (fun h => hz ((hcond0 t).mp h)) _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation0 (c : Dev nD) : BodyObligation (dat0 (F := F) V c) (defs₀ (F := F)) Variants.none () Set.univ := fun t => by
  rw [bigSep_W0, bigSep_W0]
  exact sound_body0 V c t

/-- After the last point the invariant gives the class's back: the scratch's named contents are forgotten. -/
theorem Phi0_last (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, HR⟩, Hg⟩
  isplitl [HS HR]
  · isplitl [HS]
    · iexists _; iexact HS
    iexact HR
  iexact Hg

end

end Cert.Kernel.Hand

end
-- ==== Proof.KbLaunch2.lean ====
/-
  The second launch: every grid point takes a block of 400 rows of the adjacency matrix, the whole of the first
  launch's result and the second bias as one row, and stores into its output block the row-wise log-softmax of
  block · result + bias.  The body reads its three inputs whole, computes, and stores the output block whole; it keeps
  nothing between points.  Stated at a parameter `V`: the buffer contents when the launch is entered.
-/
import proofs.«173850_g46162308498000_cont_sun_m_925_2_alg».proof.Proof.Gen.Kernel.Launch
import proofs.«173850_g46162308498000_cont_sun_m_925_2_alg».proof.Proof.Gen.Kernel.Skeleton
import proofs.«173850_g46162308498000_cont_sun_m_925_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero offsets of every access, as a function. -/
theorem hz : (![0, 0] : Fin 2 → Nat) = fun _ => 0 := funext fun a => by fin_cases a <;> rfl

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The output block after the body: the body's arithmetic of the three input blocks
    (the adjacency rows, the first launch's result, the bias row). -/
def out1_3 (x0 : Vec F S10000x16 .f32) (x1 : Vec F S1x16 .f32) (x2 : Vec F S400x10000 .f32) : Vec F S400x16 .f32 :=
  k1_pay1 x2 x0 x1

/-! ## The body's triple -/

set_option maxHeartbeats 4000000 in
/-- The body on whole staging memrefs, the inputs' at contents `x·` and the output's at anything, runs to the continuation
    holding the inputs' as they were and the output's at `out1_3` of them. -/
theorem sound_kernel1 (c : Dev nD) (E : Set ℕ) (i : grid1.Coords) (arg1 : Memref sig .tc .vmem S10000x16 .f32) (harg1 : arg1.IsWhole)
    (arg2 : Memref sig .tc .vmem S1x16 .f32) (harg2 : arg2.IsWhole) (arg3 : Memref sig .tc .vmem S400x10000 .f32) (harg3 : arg3.IsWhole)
    (arg4 : Memref sig .tc .vmem S400x16 .f32) (harg4 : arg4.IsWhole)
    (x0 : Vec F S10000x16 .f32) (x1 : Vec F S1x16 .f32) (x2 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _, View.mem_set_unit_zero hz Facts₀.inb_S400x16_S400x16_0_0 y⟩)).trans ?_
  rw [View.canon_unit_zero hz]
  simp only [View.readAt_eq_ld, View.ld_unit_zero (S := S10000x16) hz, View.ld_unit_zero (S := S1x16) hz, View.ld_unit_zero (S := S400x10000) hz]
  rfl

/-! ## The launch's proof data -/

/-- The arrays as the launch finds them; after the body at point `t` each input's buffer at its block and the output's at
    `out1_3` of the input blocks; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KbRun.lean ====
/-
  The whole run: a reshape of the first bias, the first launch, a reshape of the second bias, the second launch.
  The buffer contents at each boundary are a fold from the launch memory: a reshape's result by the host operation, a
  launch's arrays at what its write-backs leave and every other buffer as entered.  Every weakly fair execution ends
  with every unscoped buffer at the last boundary's contents; the argument arrays walk back through the fold to the
  launch memory, and the result array is what the second launch's write-backs leave.
-/
import proofs.«173850_g46162308498000_cont_sun_m_925_2_alg».proof.Proof.KbLaunch1
import proofs.«173850_g46162308498000_cont_sun_m_925_2_alg».proof.Proof.KbLaunch2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (the second launch's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second launch's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A reshape writes its own result only -/

theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

/-- An input window's array leaves the first launch as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window's array leaves the second launch as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <|
    (W2_in m ρ c 0 rfl).trans <| (W1_of_ne m ρ c main_arg0 (by decide)).trans rfl
theorem W4_main_arg1 (c : Dev nD) : W4 m ρ c (Proc.devRef .tc main_arg1) = m ((c : Thread nD τ).loc main_arg1) :=
  (W4_in m ρ c 2 rfl).trans <| (W3_of_ne m ρ c main_arg1 (by decide)).trans <|
    (W2_in m ρ c 4 rfl).trans <| (W1_of_ne m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <|
    (W2_in m ρ c 1 rfl).trans <| (W1_of_ne m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <|
    (W2_of_ne m ρ c main_arg3 (by decide)).trans <| (W1_of_ne m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <|
    (W2_in m ρ c 3 rfl).trans <| (W1_of_ne m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <|
    (W2_of_ne m ρ c main_arg5 (by decide)).trans <| (W1_of_ne m ρ c main_arg5 (by decide)).trans rfl
/-- The result array ends at what the second launch's write-backs leave. -/
theorem W4_main_v3 (c : Dev nD) : W4 m ρ c (Proc.devRef .tc main_v3) = (dat1 (V3 m ρ) c).arrAt 3 cfg1.N :=
  W4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch over the thread state: its arrays split out of the unscoped buffers and put back at the exit contents;
    the generator register and the scoped rest into the launch's invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result array named: what the second launch's write-backs leave. -/
theorem run_named : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.KiLaunch1.lean ====
/-
  The first launch: every grid point takes a block of 400 rows of the adjacency matrix and, whole, the features, the first
  weights, the first bias as one row and the second weights.  At the first point the body stores features · weights into
  a scratch buffer, which every later point reads again; at every point it stores into its output block
  max (block · scratch + bias, 0) · second weights.  So the scratch buffer is carried between points: before the first
  point it holds anything, after every point the product features · weights.  Stated at a parameter `V`: the buffer
  contents when the launch is entered.
-/
import proofs.«173850_g46162308498000_cont_sun_m_925_2_alg».proof.Proof.Gen.KernelIdeal.Launch
import proofs.«173850_g46162308498000_cont_sun_m_925_2_alg».proof.Proof.Gen.KernelIdeal.Skeleton
import proofs.«173850_g46162308498000_cont_sun_m_925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero offsets of every access, as a function. -/
theorem hz0 : (![0, 0] : Fin 2 → Nat) = fun _ => 0 := funext fun a => by fin_cases a <;> rfl

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The branch on the grid position -/

/-- The body's one condition: the grid position is the first. -/
abbrev cond0 (i : grid0.Coords) : Prop :=
  (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val = 0 :=
  (by decide +kernel : ∀ t : Fin grid0.N, cond0 (grid0.coords t) ↔ t.val = 0)

/-! ## What the body leaves -/

/-- The scratch operand: a whole scoped buffer of the kernel's own. -/
abbrev scM : Memref sig .tc .vmem S10000x16 .f32 := Memref.whole cc0_scratch0

/-- The output block after the body, from the adjacency rows, the scratch contents, the bias row and the second weights. -/
def out0_5 (x4 : Vec F S400x10000 .f32) (s : Vec F S10000x16 .f32) (x2 : Vec F S1x16 .f32) (x3 : Vec F S16x16 .f32) : Vec F S400x16 .f32 :=
  k0_pay2 x4 s x2 x3

/-! ## The body's triple, at the first point and at a later one -/

set_option maxHeartbeats 4000000 in
/-- At the first point: the scratch at anything on entry, at features · weights on exit, and the output block computed from that. -/
theorem sound_kernel0_first (c : Dev nD) (E : Set ℕ) (i : grid0.Coords) (hc : cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S400x10000 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S16x16 .f32) (x4 : Vec F S400x10000 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4 (k0_pay1 x0 x1) x2 x3)
            ∗ owns (c : Thread nD τ) arg7 fullShare (k0_pay1 x0 x1)) -∗ K ⟨⟩))
      ⊢ wp frame (wpE (defs₀ (F := F)) Variants.none c none) E
          (cc0__pass1_kernel i arg1 harg1 arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (fun y => ⟨_, List.mem_singleton_self _, View.mem_set_unit_zero hz0 Facts₀.inb_S400x16_S400x16_0_0 y⟩)).trans ?_
    rw [View.canon_unit_zero hz0]
    sl_unfold_run_names
    simp only [View.readAt_eq_ld, View.ld_unit_zero (S := S400x10000) hz0, View.ld_unit_zero (S := S1x16) hz0, View.ld_unit_zero (S := S16x16) hz0, View.ld_unit_zero (S := S10000x128) hz0, View.ld_unit_zero (S := S128x16) hz0]
    rw [View.readCov_unit_zero (S := S10000x16) _ hz0]
    rfl
  · iexists _; isplitr
    swap; · iexact H6
    ipureintro
    sl_unfold_run_names
    refine (View.read_writes_eq_canon _ _ _ (fun y => ⟨_, List.mem_singleton_self _, View.mem_set_unit_zero hz0 Facts₀.inb_S10000x16_S10000x16_0_0 y⟩)).trans ?_
    rw [View.canon_unit_zero hz0]
    simp only [View.readAt_eq_ld, View.ld_unit_zero (S := S10000x128) hz0, View.ld_unit_zero (S := S128x16) hz0]

set_option maxHeartbeats 4000000 in
/-- At a later point: the scratch at contents `s` on entry and on exit, and the output block computed from it. -/
theorem sound_kernel0_later (c : Dev nD) (E : Set ℕ) (i : grid0.Coords) (hc : ¬cond0 i)
    (arg1 : Memref sig .tc .vmem S10000x128 .f32) (harg1 : arg1.IsWhole) (arg2 : Memref sig .tc .vmem S128x16 .f32) (harg2 : arg2.IsWhole)
    (arg3 : Memref sig .tc .vmem S1x16 .f32) (harg3 : arg3.IsWhole) (arg4 : Memref sig .tc .vmem S16x16 .f32) (harg4 : arg4.IsWhole)
    (arg5 : Memref sig .tc .vmem S400x10000 .f32) (harg5 : arg5.IsWhole) (arg6 : Memref sig .tc .vmem S400x16 .f32) (harg6 : arg6.IsWhole)
    (arg7 : Memref sig .tc .vmem S10000x16 .f32) (harg7 : arg7.IsWhole)
    (x0 : Vec F S10000x128 .f32) (x1 : Vec F S128x16 .f32) (x2 : Vec F S1x16 .f32) (x3 : Vec F S16x16 .f32) (x4 : Vec F S400x10000 .f32)
    (s : Vec F S10000x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x4 s x2 x3)
            ∗ owns (c : Thread nD τ) arg7 fullShare s) -∗ K ⟨⟩))
      ⊢ wp frame (wpE (defs₀ (F := F)) Variants.none c none) E
          (cc0__pass1_kernel i arg1 harg1 arg2 harg2 arg3 harg3 arg4 harg4 arg5 harg5 arg6 harg6 arg7 harg7) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0; subst hf1; subst hf2; subst hf3; subst hf4; subst hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (fun y => ⟨_, List.mem_singleton_self _, View.mem_set_unit_zero hz0 Facts₀.inb_S400x16_S400x16_0_0 y⟩)).trans ?_
    rw [View.canon_unit_zero hz0]
    simp only [View.readAt_eq_ld, View.ld_unit_zero (S := S400x10000) hz0, View.ld_unit_zero (S := S1x16) hz0, View.ld_unit_zero (S := S16x16) hz0, View.ld_unit_zero (S := S10000x16) hz0]
    rfl
  · iexists f6; isplitr; · ipureintro; rfl
    iexact H6

/-! ## The carried scratch and the launch's invariant -/

/-- The grid's first point. -/
def t0 : Fin cfg0.N := ⟨0, by decide⟩

/-- What the scratch buffer holds after every point: the product the first point stored. -/
def S1 (c : Dev nD) : Vec F S10000x16 .f32 := k0_pay1 (iblk0 V c 0 t0) (iblk0 V c 1 t0)

/-- The scoped buffers that are neither the launch's staging buffers nor its scratch: the second launch's staging buffers,
    each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the scratch as a memref owned at some contents. -/
theorem PhiA0_eq (c : Dev nD) :
    (Pipeline.ΦA spec0 c : sProp 𝕄)
      = iprop(iprop((∃ d, owns (c : Thread nD τ) scM fullShare d) ∗ Rest0 c) ∗ (∃ r, prngReg c r)) := by
  unfold Pipeline.ΦA Rest0; rw [scopedRest0_eq]; simp only [scM, owns_whole]; try rfl

/-- The launch's invariant before position `n`: before the first point the class's (the scratch at anything); afterwards
    the scratch at the product, the rest at anything, the generator register at some state. -/
def PhiS (c : Dev nD) : ℕ → sProp 𝕄
  | 0 => Pipeline.ΦA spec0 c
  | _ + 1 => iprop(iprop(owns (c : Thread nD τ) scM fullShare (S1 V c) ∗ Rest0 c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM fullShare (S1 V c) ∗ Rest0 c) ∗ (∃ r, prngReg c r)) := rfl
theorem PhiS_pos (c : Dev nD) (n : ℕ) (hz : n ≠ 0) :
    PhiS V c n = iprop(iprop(owns (c : Thread nD τ) scM fullShare (S1 V c) ∗ Rest0 c) ∗ (∃ r, prngReg c r)) := by
  cases n with
  | zero => exact absurd rfl hz
  | succ n => rfl

/-! ## The launch's proof data -/

/-- The arrays as the launch finds them; after the body at point `t` each input's buffer at its block and the output's at
    `out0_5` of the adjacency block, the product, the bias row and the second weights; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 4 t) (S1 V c) (iblk0 V c 2 t) (iblk0 V c 3 t)
  Φ t := PhiS V c t.val
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 4 t) (S1 V c) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' memrefs hold their blocks; at the first point the scratch comes at anything and
    goes back at the product, at a later point it comes and goes at the product. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS V c (t.val + 1) from rfl, PhiS_succ,
    after0_0, after0_1, after0_2, after0_3, after0_4, after0_5, PhiS_castSucc V c t]
  by_cases hz : t.val = 0
  · have ht : t = t0 := Fin.ext hz
    subst ht
    rw [PhiS_zero V c _ hz, PhiA0_eq]
    unfold S1
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel0_first c Set.univ (grid0.coords t0) ((hcond0 t0).mpr rfl) _ _ _ _ _ _ _ _ _ _ _ _ _ _
      (iblk0 V c 0 t0) (iblk0 V c 1 t0) (iblk0 V c 2 t0) (iblk0 V c 3 t0) (iblk0 V c 4 t0) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos V c _ hz]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel0_later c Set.univ (grid0.coords t) (fun h => hz ((hcond0 t).mp h)) _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

theorem body_obligation0 (c : Dev nD) : BodyObligation (dat0 (F := F) V c) (defs₀ (F := F)) Variants.none () Set.univ := fun t => by
  rw [bigSep_W0, bigSep_W0]
  exact sound_body0 V c t

/-- After the last point the invariant gives the class's back: the scratch's named contents are forgotten. -/
theorem Phi0_last (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, HR⟩, Hg⟩
  isplitl [HS HR]
  · isplitl [HS]
    · iexists _; iexact HS
    iexact HR
  iexact Hg

end

end Cert.KernelIdeal.Hand

end
-- ==== Proof.KiLaunch2.lean ====
/-
  The second launch: every grid point takes a block of 400 rows of the adjacency matrix, the whole of the first
  launch's result and the second bias as one row, and stores into its output block the row-wise log-softmax of
  block · result + bias.  The body reads its three inputs whole, computes, and stores the output block whole; it keeps
  nothing between points.  Stated at a parameter `V`: the buffer contents when the launch is entered.
-/
import proofs.«173850_g46162308498000_cont_sun_m_925_2_alg».proof.Proof.Gen.KernelIdeal.Launch
import proofs.«173850_g46162308498000_cont_sun_m_925_2_alg».proof.Proof.Gen.KernelIdeal.Skeleton
import proofs.«173850_g46162308498000_cont_sun_m_925_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The zero offsets of every access, as a function. -/
theorem hz : (![0, 0] : Fin 2 → Nat) = fun _ => 0 := funext fun a => by fin_cases a <;> rfl

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The output block after the body: the body's arithmetic of the three input blocks
    (the adjacency rows, the first launch's result, the bias row). -/
def out1_3 (x0 : Vec F S10000x16 .f32) (x1 : Vec F S1x16 .f32) (x2 : Vec F S400x10000 .f32) : Vec F S400x16 .f32 :=
  k1_pay1 x2 x0 x1

/-! ## The body's triple -/

set_option maxHeartbeats 4000000 in
/-- The body on whole staging memrefs, the inputs' at contents `x·` and the output's at anything, runs to the continuation
    holding the inputs' as they were and the output's at `out1_3` of them. -/
theorem sound_kernel1 (c : Dev nD) (E : Set ℕ) (i : grid1.Coords) (arg1 : Memref sig .tc .vmem S10000x16 .f32) (harg1 : arg1.IsWhole)
    (arg2 : Memref sig .tc .vmem S1x16 .f32) (harg2 : arg2.IsWhole) (arg3 : Memref sig .tc .vmem S400x10000 .f32) (harg3 : arg3.IsWhole)
    (arg4 : Memref sig .tc .vmem S400x16 .f32) (harg4 : arg4.IsWhole)
    (x0 : Vec F S10000x16 .f32) (x1 : Vec F S1x16 .f32) (x2 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _, View.mem_set_unit_zero hz Facts₀.inb_S400x16_S400x16_0_0 y⟩)).trans ?_
  rw [View.canon_unit_zero hz]
  simp only [View.readAt_eq_ld, View.ld_unit_zero (S := S10000x16) hz, View.ld_unit_zero (S := S1x16) hz, View.ld_unit_zero (S := S400x10000) hz]
  rfl

/-! ## The launch's proof data -/

/-- The arrays as the launch finds them; after the body at point `t` each input's buffer at its block and the output's at
    `out1_3` of the input blocks; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KiRun.lean ====
/-
  The whole run: a reshape of the first bias, the first launch, a reshape of the second bias, the second launch.
  The buffer contents at each boundary are a fold from the launch memory: a reshape's result by the host operation, a
  launch's arrays at what its write-backs leave and every other buffer as entered.  Every weakly fair execution ends
  with every unscoped buffer at the last boundary's contents; the argument arrays walk back through the fold to the
  launch memory, and the result array is what the second launch's write-backs leave.
-/
import proofs.«173850_g46162308498000_cont_sun_m_925_2_alg».proof.Proof.KiLaunch1
import proofs.«173850_g46162308498000_cont_sun_m_925_2_alg».proof.Proof.KiLaunch2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second reshape (the second launch's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second launch's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A reshape writes its own result only -/

theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

/-- An input window's array leaves the first launch as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- An input window's array leaves the second launch as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <|
    (W2_in m ρ c 0 rfl).trans <| (W1_of_ne m ρ c main_arg0 (by decide)).trans rfl
theorem W4_main_arg1 (c : Dev nD) : W4 m ρ c (Proc.devRef .tc main_arg1) = m ((c : Thread nD τ).loc main_arg1) :=
  (W4_in m ρ c 2 rfl).trans <| (W3_of_ne m ρ c main_arg1 (by decide)).trans <|
    (W2_in m ρ c 4 rfl).trans <| (W1_of_ne m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <|
    (W2_in m ρ c 1 rfl).trans <| (W1_of_ne m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <|
    (W2_of_ne m ρ c main_arg3 (by decide)).trans <| (W1_of_ne m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of_ne m ρ c main_arg4 (by decide)).trans <|
    (W2_in m ρ c 3 rfl).trans <| (W1_of_ne m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of_ne m ρ c main_arg5 (by decide)).trans <|
    (W2_of_ne m ρ c main_arg5 (by decide)).trans <| (W1_of_ne m ρ c main_arg5 (by decide)).trans rfl
/-- The result array ends at what the second launch's write-backs leave. -/
theorem W4_main_v3 (c : Dev nD) : W4 m ρ c (Proc.devRef .tc main_v3) = (dat1 (V3 m ρ) c).arrAt 3 cfg1.N :=
  W4_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch over the thread state: its arrays split out of the unscoped buffers and put back at the exit contents;
    the generator register and the scoped rest into the launch's invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result array named: what the second launch's write-backs leave. -/
theorem run_named : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«173850_g46162308498000_cont_sun_m_925_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibLayers.lean ====
/-
  General definitions and lemmas: the layers of a graph convolution, as functions of whole arrays of extended reals.

  A layer multiplies the features by a weight matrix, multiplies the adjacency matrix by the result and adds a
  bias to every row: `A · (H · W) + b`.  Between layers every entry is replaced by its maximum with zero.
  All of it is row-wise in the adjacency matrix: row `r` of the result depends on `A` only through row `r` of `A`.
  So any selection of rows of `A` (a block of consecutive rows, in particular) gives the same selection of rows of
  the result — which is what lets a result computed block of rows by block of rows be read as one array.
-/
import Idealize.ShloMosaic.Lib.Pipeline.Value
import Idealize.ShloMosaic.Lib.ValueIdx
import proofs.«173850_g46162308498000_cont_sun_m_925_2_alg».proof.Proof.LibMatmulRead

open scoped BigOperators

noncomputable section

namespace Cert.Layers

open Idealize.ShloMosaic Idealize.ShloMosaic.ValueIdx Cert.GCN

/-- A one-axis array of extended reals. -/
abbrev Row (p : Nat) := (⟨1, ![p]⟩ : Shape).Idx → EReal

/-- A vector laid out as the single row of a `[1, p]` array. -/
def asRow {p : Nat} (b : Row p) : Arr 1 p := fun i => b (ix1 (i 1))

/-- A one-row array added to every row. -/
def addRow {n p : Nat} (X : Arr n p) (b : Arr 1 p) : Arr n p := fun i => X i + b (ix2 (0 : Fin 1) (i 1))

/-- Every entry replaced by its maximum with zero. -/
def relu {n p : Nat} (X : Arr n p) : Arr n p := fun i => max (X i) 0

theorem addRow_apply {n p : Nat} (X : Arr n p) (b : Arr 1 p) (r : Fin n) (c : Fin p) :
    addRow X b (ix2 r c) = X (ix2 r c) + b (ix2 (0 : Fin 1) c) := rfl

theorem relu_apply {n p : Nat} (X : Arr n p) (r : Fin n) (c : Fin p) : relu X (ix2 r c) = max (X (ix2 r c)) 0 := rfl

/-- The features handed to the next layer: `max (A · S + b, 0) · W`, where `S` is the previous product. -/
def hidden {n k q p : Nat} (A : Arr n k) (S : Arr k q) (b : Arr 1 q) (W : Arr q p) : Arr n p :=
  mm (relu (addRow (mm A S) b)) W

/-- The last layer's result: `A · S + b`. -/
def affine {n k p : Nat} (A : Arr n k) (S : Arr k p) (b : Arr 1 p) : Arr n p := addRow (mm A S) b

/-! ## Rows of the result come from the same rows of the left factor -/

section Rows

variable {N n : Nat} (f : Fin n → Fin N)

theorem mm_rows {k p : Nat} (A : Arr N k) (A' : Arr n k) (B : Arr k p)
    (h : ∀ r d, A' (ix2 r d) = A (ix2 (f r) d)) (r : Fin n) (c : Fin p) :
    mm A' B (ix2 r c) = mm A B (ix2 (f r) c) := by
  rw [mm_apply, mm_apply]
  exact Finset.sum_congr rfl fun d _ => by rw [h r d]

theorem addRow_rows {p : Nat} (X : Arr N p) (X' : Arr n p) (b : Arr 1 p)
    (h : ∀ r c, X' (ix2 r c) = X (ix2 (f r) c)) (r : Fin n) (c : Fin p) :
    addRow X' b (ix2 r c) = addRow X b (ix2 (f r) c) := by
  rw [addRow_apply, addRow_apply, h r c]

theorem relu_rows {p : Nat} (X : Arr N p) (X' : Arr n p)
    (h : ∀ r c, X' (ix2 r c) = X (ix2 (f r) c)) (r : Fin n) (c : Fin p) :
    relu X' (ix2 r c) = relu X (ix2 (f r) c) := by
  rw [relu_apply, relu_apply, h r c]

theorem hidden_rows {k q p : Nat} (A : Arr N k) (A' : Arr n k) (S : Arr k q) (b : Arr 1 q) (W : Arr q p)
    (h : ∀ r d, A' (ix2 r d) = A (ix2 (f r) d)) (r : Fin n) (c : Fin p) :
    hidden A' S b W (ix2 r c) = hidden A S b W (ix2 (f r) c) :=
  mm_rows f _ _ W (relu_rows f _ _ (addRow_rows f _ _ b (mm_rows f A A' S h))) r c

theorem affine_rows {k p : Nat} (A : Arr N k) (A' : Arr n k) (S : Arr k p) (b : Arr 1 p)
    (h : ∀ r d, A' (ix2 r d) = A (ix2 (f r) d)) (r : Fin n) (c : Fin p) :
    affine A' S b (ix2 r c) = affine A S b (ix2 (f r) c) :=
  addRow_rows f _ _ b (mm_rows f A A' S h) r c

end Rows

/-! ## A one-row array spread over all rows, read at an entry -/

/-- A `[1, b]` array broadcast to `[a, b]` reads, at `(i, j)`, its only row at `j`. -/
theorem broadcastTo_row_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.Layers

end
-- ==== Proof.LibLayerOps.lean ====
/-
  General lemmas: the operations of a dense layer, as a kernel body and as the host spell them, read as whole
  arrays at the ideal values.

  In a kernel body: a plain matrix product into the zero accumulator is the matrix product; adding a one-row array
  spread over the rows adds that row to every row; the maximum with the zero splat is the maximum with zero.
  On the host: a plain `dot_general` is the matrix product; a bias vector is added to every row by broadcasting it
  first to one row and then over all rows; the maximum with zero is taken against a broadcast scalar zero; and a
  vector reshaped to one row is that vector as a row.
-/
import Idealize.ShloMosaic.Lib.Pipeline.Value
import Idealize.ShloMosaic.Lib.ValueIdx
import Idealize.ShloMosaic.PureOps.Ideal.Laws
import proofs.«173850_g46162308498000_cont_sun_m_925_2_alg».proof.Proof.LibLayers

noncomputable section

namespace Cert.LayerOps

open Idealize.ShloMosaic Idealize.ShloMosaic.ValueIdx Cert.GCN Cert.Layers

/-- A plain matrix product into the zero accumulator is the product of its operands, as whole arrays. -/
theorem matmul_zero_eq_mm {M K N : Nat} {φ₁ φ₂ : FTy} (prec : Option ContractPrecision)
    (l : FVec Ideal ⟨2, ![M, K]⟩ φ₁) (w : FVec Ideal ⟨2, ![K, N]⟩ φ₂) :
    (FloatOps.matmul (DotDims.plain M K N) prec l w (constant ⟨2, ![M, N]⟩ .f32 0x00000000#32) : Arr M N) = mm l w := by
  funext i
  rw [eq_ix2 i]
  exact matmul_plain_zero_apply prec l w (i 0) (i 1)

/-- Adding a one-row array spread over the rows adds that row to every row. -/
theorem addf_row {a b : Nat} (X : FVec Ideal ⟨2, ![a, b]⟩ .f32) (v : FVec Ideal ⟨2, ![1, b]⟩ .f32)
    (h : (⟨2, ![1, b]⟩ : Shape).Broadcasts ⟨2, ![a, b]⟩) :
    (addf X (broadcastTo ⟨2, ![a, b]⟩ v h) : Arr a b) = addRow X v := by
  funext i
  rw [eq_ix2 i]
  exact congrArg (X (ix2 (i 0) (i 1)) + ·) (broadcastTo_row_apply v h (i 0) (i 1))

/-- The maximum with the zero splat is the maximum with zero. -/
theorem maximumf_zero {a b : Nat} (X : FVec Ideal ⟨2, ![a, b]⟩ .f32) :
    (maximumf X (broadcast ⟨2, ![a, b]⟩ (Scalar.ofBits (F := Ideal) .f32 0x00000000#32)) : Arr a b) = relu X := by
  funext i
  show max (X i) (Ideal.ofBits .f32 0x00000000#32) = max (X i) 0
  rw [Ideal.ofBits_zero_f32]

end Cert.LayerOps

namespace Cert.HostLayers

open Idealize.ShloMosaic Idealize.ShloMosaic.ValueIdx Cert.GCN Cert.Layers

/-- A plain `dot_general` on the host is the matrix product of its operands. -/
theorem hostDot_plain {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (w : FVec Ideal ⟨2, ![K, N]⟩ .f32) :
    (Host.dotGeneral D prec l w : Arr M N) = mm l w := by
  subst hD
  exact hostDot_eq_mm prec .single l w

/-- A vector broadcast to one row and then over all rows reads, at `(r, c)`, the vector at `c`. -/
theorem bias_apply {n p : Nat} (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) (r : Fin n) (c : Fin p) :
    broadcastInDim ⟨2, ![n, p]⟩ ![0, 1] h2 (broadcastInDim ⟨2, ![1, p]⟩ ![1] h1 b) (ix2 r c) = b (ix1 c) := by
  refine (broadcastInDim_apply ![0, 1] h2 _ (ix2 r c) (ix2 (0 : Fin 1) c) fun a => ?_).trans ?_
  · match a with
    | ⟨0, _⟩ => rfl
    | ⟨1, _⟩ =>
      show c.val = if p = 1 then 0 else c.val
      split
      · have := c.isLt; omega
      · rfl
  · refine broadcastInDim_apply ![1] h1 b (ix2 (0 : Fin 1) c) (ix1 c) fun a => ?_
    match a with
    | ⟨0, _⟩ =>
      show c.val = if p = 1 then 0 else c.val
      split
      · have := c.isLt; omega
      · rfl

/-- Adding that broadcast to an array adds the vector, as a row, to every row. -/
theorem host_addRow {n p : Nat} (X : FVec Ideal ⟨2, ![n, p]⟩ .f32) (b : FVec Ideal ⟨1, ![p]⟩ .f32)
    (h1 : (⟨1, ![p]⟩ : Shape).BroadcastsInDim ⟨2, ![1, p]⟩ ![1])
    (h2 : (⟨2, ![1, p]⟩ : Shape).BroadcastsInDim ⟨2, ![n, p]⟩ ![0, 1]) :
    (addf X (broadcastInDim ⟨2, ![n, p]⟩ ![0, 1] h2 (broadcastInDim ⟨2, ![1, p]⟩ ![1] h1 b)) : Arr n p)
      = addRow X (asRow b) := by
  funext i
  rw [eq_ix2 i]
  exact congrArg (X (ix2 (i 0) (i 1)) + ·) (bias_apply b h1 h2 (i 0) (i 1))

/-- The maximum with the broadcast scalar zero is the maximum with zero. -/
theorem host_relu {n p : Nat} (X : FVec Ideal ⟨2, ![n, p]⟩ .f32)
    (h : (⟨0, ![]⟩ : Shape).BroadcastsInDim ⟨2, ![n, p]⟩ ![]) :
    (maximumf X (broadcastInDim ⟨2, ![n, p]⟩ ![] h (constant (F := Ideal) ⟨0, ![]⟩ .f32 0x00000000#32)) : Arr n p) = relu X := by
  funext i
  show max (X i) (broadcastInDim ⟨2, ![n, p]⟩ ![] h (constant (F := Ideal) ⟨0, ![]⟩ .f32 0x00000000#32) i) = max (X i) 0
  rw [broadcastInDim_apply ![] h _ i ix0 (fun a => a.elim0)]
  show max (X i) (Ideal.ofBits .f32 0x00000000#32) = _
  rw [Ideal.ofBits_zero_f32]

/-- A vector reshaped to one row is that vector as a row. -/
theorem reshape_asRow {p : Nat} (b : FVec Ideal ⟨1, ![p]⟩ .f32) (h : (⟨1, ![p]⟩ : Shape).ShapeCasts ⟨2, ![1, p]⟩) :
    (shapeCast ⟨2, ![1, p]⟩ b h : Arr 1 p) = asRow b := by
  funext i
  have h0 : (i 0).val < 1 := (i 0).isLt
  refine shapeCast_apply b h i (ix1 (i 1)) ?_
  rw [Shape.rowMajor_val_two, Shape.rowMajor_val_one]
  show (i 1).val = (i 0).val * p + (i 1).val
  have : (i 0).val = 0 := by omega
  rw [this, Nat.zero_mul, Nat.zero_add]

end Cert.HostLayers

end
-- ==== Proof.KiEntry.lean ====
/-
  What each launch finds in its arrays, read back to the arguments: the first launch finds the features, the adjacency
  matrix and the weights as launched and the first bias as one row; the second finds the adjacency matrix as launched, the
  first launch's result, and the second bias as one row.
-/
import proofs.«173850_g46162308498000_cont_sun_m_925_2_alg».proof.Proof.KiRun
import proofs.«173850_g46162308498000_cont_sun_m_925_2_alg».proof.Proof.LibLayerOps
import Idealize.ShloMosaic.Lib.StableHlo.Run

noncomputable section

namespace Cert.KernelIdeal.HandValue

open Cert.KernelIdeal Cert.KernelIdeal.Gen Cert.KernelIdeal.Hand
open Idealize.ShloMosaic Idealize.ShloMosaic.TcCoe Idealize.SL.Sem
open Cert.GCN Cert.Layers

variable (m : (ℓ : Loc nD τ sig) → Buf (Elt Ideal) ℓ) (ρ : Dev nD → PrngReg)

theorem V1_arg0 (c : Dev nD) : V1 m ρ c main_arg0 = m ((c : Thread nD τ).loc main_arg0) :=
  (W1_of_ne m ρ c main_arg0 (by decide)).trans rfl
theorem V1_arg1 (c : Dev nD) : V1 m ρ c main_arg1 = m ((c : Thread nD τ).loc main_arg1) :=
  (W1_of_ne m ρ c main_arg1 (by decide)).trans rfl
theorem V1_arg2 (c : Dev nD) : V1 m ρ c main_arg2 = m ((c : Thread nD τ).loc main_arg2) :=
  (W1_of_ne m ρ c main_arg2 (by decide)).trans rfl
theorem V1_arg4 (c : Dev nD) : V1 m ρ c main_arg4 = m ((c : Thread nD τ).loc main_arg4) :=
  (W1_of_ne m ρ c main_arg4 (by decide)).trans rfl

/-- The first reshape's result is the first bias as one row. -/
theorem V1_v0 (c : Dev nD) : (V1 m ρ c main_v0 : Arr 1 16) = asRow (m ((c : Thread nD τ).loc main_arg3)) := by
  have e : (V1 m ρ c main_v0 : Arr 1 16) = shapeCast S1x16 (m ((c : Thread nD τ).loc main_arg3)) Facts₀.shapeCasts_S16_S1x16 := by
    show StableHlo.after hostOps0 (W0 m ρ c) (Proc.devRef .tc main_v0) = _
    after_results; rfl
  rw [e]
  exact Cert.HostLayers.reshape_asRow _ _

theorem V3_arg1 (c : Dev nD) : V3 m ρ c main_arg1 = m ((c : Thread nD τ).loc main_arg1) :=
  (W3_of_ne m ρ c main_arg1 (by decide)).trans <| (W2_in m ρ c 4 rfl).trans <| (W1_of_ne m ρ c main_arg1 (by decide)).trans rfl

/-- The second launch finds the first launch's result where its write-backs left it. -/
theorem V3_v1 (c : Dev nD) : V3 m ρ c main_v1 = (dat0 (V1 m ρ) c).arrAt 5 cfg0.N :=
  (W3_of_ne m ρ c main_v1 (by decide)).trans (W2_arr m ρ c 5)

/-- The second reshape's result is the second bias as one row. -/
theorem V3_v2 (c : Dev nD) : (V3 m ρ c main_v2 : Arr 1 16) = asRow (m ((c : Thread nD τ).loc main_arg5)) := by
  have e : (V3 m ρ c main_v2 : Arr 1 16) = shapeCast S1x16 (W2 m ρ c (Proc.devRef .tc main_arg5)) Facts₀.shapeCasts_S16_S1x16 := by
    show StableHlo.after hostOps1 (W2 m ρ c) (Proc.devRef .tc main_v2) = _
    after_results; rfl
  rw [e, show W2 m ρ c (Proc.devRef .tc main_arg5) = m ((c : Thread nD τ).loc main_arg5) from
    (W2_of_ne m ρ c main_arg5 (by decide)).trans ((W1_of_ne m ρ c main_arg5 (by decide)).trans rfl)]
  exact Cert.HostLayers.reshape_asRow _ _

end Cert.KernelIdeal.HandValue

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.Spec.lean ====
/-
  The two-layer graph convolution with a row-wise log-softmax, as ONE function of whole arrays of extended reals.

  With `A` the adjacency matrix, `X` the features, `W₁, W₂` the weights and `b₁, b₂` the biases, the logits are
  `Z = A · (max (A · (X · W₁) + b₁, 0) · W₂) + b₂`, and the result subtracts from every entry of a row of `Z` the
  logarithm of the sum of the exponentials of that row, computed stably: with `M` the greatest entry of the row,
  `Z[r,c] - (log (∑ⱼ exp (Z[r,j] - M)) + M)`.
-/
import Idealize.ShloMosaic.PureOps.Ideal
import proofs.«173850_g46162308498000_cont_sun_m_925_2_alg».proof.Proof.LibLayers

open scoped BigOperators

noncomputable section

namespace Cert.GcnSpec

open Idealize.ShloMosaic Idealize.ShloMosaic.ValueIdx Cert.GCN Cert.Layers

/-- Every entry of an array is a real number (neither infinity). -/
def AllReal {s : Shape} (x : s.Idx → EReal) : Prop := ∀ i, ∃ r : ℝ, x i = (r : EReal)

/-- The greatest entry of row `r`, as the fold of `max` from `-∞` over the row's columns. -/
def rowMax {n p : Nat} (T : Arr n p) (r : Fin n) : EReal :=
  (Finset.univ : Finset (Fin p)).fold max ⊥ (fun j => T (ix2 r j))

/-- The logarithm of the sum of a row's exponentials, shifted by the row's greatest entry. -/
def rowLse {n p : Nat} (T : Arr n p) (r : Fin n) : EReal :=
  Ideal.log (∑ j : Fin p, Ideal.exp (T (ix2 r j) - rowMax T r)) + rowMax T r

/-- The row-wise log-softmax: every entry less its row's log-sum-exp. -/
def logSoftmax {n p : Nat} (T : Arr n p) : Arr n p := fun i => T i - rowLse T (i 0)

theorem logSoftmax_apply {n p : Nat} (T : Arr n p) (r : Fin n) (c : Fin p) :
    logSoftmax T (ix2 r c) = T (ix2 r c) - rowLse T r := rfl

/-- Row `r` of the log-softmax depends on row `r` only: a selection of rows commutes with it. -/
theorem logSoftmax_rows {N n p : Nat} (f : Fin n → Fin N) (T : Arr N p) (T' : Arr n p)
    (h : ∀ r c, T' (ix2 r c) = T (ix2 (f r) c)) (r : Fin n) (c : Fin p) :
    logSoftmax T' (ix2 r c) = logSoftmax T (ix2 (f r) c) := by
  have hm : rowMax T' r = rowMax T (f r) := by
    unfold rowMax; rw [show (fun j => T' (ix2 r j)) = fun j => T (ix2 (f r) j) from funext fun j => h r j]
  have hl : rowLse T' r = rowLse T (f r) := by
    unfold rowLse; rw [hm]; exact congrArg (fun z => Ideal.log z + rowMax T (f r)) (Finset.sum_congr rfl fun j _ => by rw [h r j])
  rw [logSoftmax_apply, logSoftmax_apply, h r c, hl]

/-- The logits `A · (max (A · (X · W₁) + b₁, 0) · W₂) + b₂`. -/
def logits (x : Arr 10000 128) (adj : Arr 10000 10000) (W1 : Arr 128 16) (b1 : Row 16) (W2 : Arr 16 16) (b2 : Row 16) :
    Arr 10000 16 :=
  affine adj (hidden adj (mm x W1) (asRow b1) W2) (asRow b2)

/-- The whole result. -/
def out (x : Arr 10000 128) (adj : Arr 10000 10000) (W1 : Arr 128 16) (b1 : Row 16) (W2 : Arr 16 16) (b2 : Row 16) :
    Arr 10000 16 :=
  logSoftmax (logits x adj W1 b1 W2 b2)

end Cert.GcnSpec

end
-- ==== Proof.Payloads.lean ====
/-
  The arithmetic of the kernel's two bodies at the ideal values, as functions of whole arrays.

  The first body computes the product of the features by the first weight matrix, and, for a block of rows of the
  adjacency matrix, the hidden layer: the block times that product, plus the first bias on every row, the maximum with
  zero, times the second weight matrix.  The second body computes, for a block of rows, the logits (the block times the
  hidden features plus the second bias on every row) and then the row-wise log-softmax in its stable form: every entry
  less (the logarithm of the sum of the exponentials of the row's entries less the row's greatest entry, plus that
  greatest entry).
-/
import Idealize.ShloMosaic.Lib.Pipeline.Value
import Idealize.ShloMosaic.Lib.ValueIdx
import Idealize.ShloMosaic.PureOps.Ideal.Laws
import proofs.«173850_g46162308498000_cont_sun_m_925_2_alg».proof.Proof.Gen.KernelIdeal.Skeleton
import proofs.«173850_g46162308498000_cont_sun_m_925_2_alg».proof.Proof.LibLayerOps
import proofs.«173850_g46162308498000_cont_sun_m_925_2_alg».proof.Proof.LibKeepdims
import proofs.«173850_g46162308498000_cont_sun_m_925_2_alg».proof.Proof.Spec

open scoped BigOperators

noncomputable section

namespace Cert.KernelSide

open Idealize.ShloMosaic Idealize.ShloMosaic.ValueIdx Cert.GCN Cert.Layers Cert.KernelIdeal Cert.KernelIdeal.Gen

variable [Cert.KernelIdeal.Facts]

/-- The features times the first weight matrix. -/
theorem pay1_eq (v15 : FVec Ideal S10000x128 .f32) (v16 : FVec Ideal S128x16 .f32) :
    (k0_pay1 (F := Ideal) v15 v16 : Arr 10000 16) = mm v15 v16 := by
  unfold k0_pay1
  dsimp only
  rw [shapeCast_self]
  exact Cert.LayerOps.matmul_zero_eq_mm none v15 v16

/-- The hidden layer on a block of rows of the adjacency matrix. -/
theorem pay2_eq (v3 : FVec Ideal S400x10000 .f32) (v4 : FVec Ideal S10000x16 .f32) (v6 : FVec Ideal S1x16 .f32)
    (v12 : FVec Ideal S16x16 .f32) :
    (k0_pay2 (F := Ideal) v3 v4 v6 v12 : Arr 400 16) = Cert.Layers.hidden v3 v4 v6 v12 := by
  unfold k0_pay2
  dsimp only
  rw [shapeCast_self]
  have h1 : (matmul dot_S400x10000_S10000x16_S400x16_1_0_0_1_n_n none v3 v4 (constant S400x16 .f32 0x00000000#32) : Arr 400 16)
      = mm v3 v4 := Cert.LayerOps.matmul_zero_eq_mm none v3 v4
  rw [h1]
  have h2 : (addf (F := Ideal) (φ := .f32) (mm v3 v4) (broadcastTo S400x16 v6 broadcasts_S1x16_S400x16) : Arr 400 16)
      = addRow (mm v3 v4) v6 := Cert.LayerOps.addf_row (mm v3 v4) v6 broadcasts_S1x16_S400x16
  rw [h2]
  have h3 : (maximumf (addRow (mm v3 v4) v6) (broadcast S400x16 (Scalar.ofBits (F := Ideal) .f32 0x00000000#32)) : Arr 400 16)
      = relu (addRow (mm v3 v4) v6) := Cert.LayerOps.maximumf_zero (addRow (mm v3 v4) v6)
  rw [h3]
  exact Cert.LayerOps.matmul_zero_eq_mm none (relu (addRow (mm v3 v4) v6)) v12

/-! ## The second body: the logits of a block of rows and their row-wise log-softmax -/

/-- The word of minus infinity. -/
theorem ofBits_neg_inf : Ideal.ofBits .f32 0xFF800000#32 = ⊥ := by simp [Ideal.ofBits, Ideal.ieee]

/-- The index over row `r` with `k` inserted on the reduced axis is `(r, k)`. -/
theorem lift_row (h : S400x16.Reduces [1] S400) (r : Fin 400) (k : Fin 16) : h.lift (ix1 r) k = ix2 r k := by
  funext c
  refine Fin.ext ?_
  match c with
  | ⟨0, _⟩ => rfl
  | ⟨1, _⟩ => rfl

/-- The reduction by maximum over the columns, from minus infinity, is the row's greatest entry. -/
theorem rowmax_apply (T : FVec Ideal S400x16 .f32) (h : S400x16.Reduces [1] S400) (hφ : FKind.Formats .f32)
    (hacc : (0xFF800000#32 : BitVec 32) = FKind.maximumf.neutral .f32 hφ) (r : Fin 400) :
    multiReduction (F := Ideal) .maximumf [1] S400 T 0xFF800000#32 h hφ hacc (ix1 r) = Cert.GcnSpec.rowMax T r := by
  refine (Ideal.multiReduction_maximumf_single T 0xFF800000#32 h hφ hacc (ix1 r)).trans ?_
  show (Finset.univ : Finset (Fin 16)).fold max (Ideal.ofBits .f32 0xFF800000#32) (T ∘ h.lift (ix1 r)) = _
  rw [ofBits_neg_inf]
  unfold Cert.GcnSpec.rowMax
  exact congrArg (fun f : Fin 16 → EReal => Finset.fold max ⊥ f Finset.univ) (funext fun k => congrArg T (lift_row h r k))

/-- The reduction by sum over the columns is the sum of the row's entries. -/
theorem rowsum_apply (E : FVec Ideal S400x16 .f32) (h : S400x16.Reduces [1] S400) (hφ : FKind.Formats .f32)
    (hacc : (0x00000000#32 : BitVec 32) = FKind.add.neutral .f32 hφ) (r : Fin 400) :
    multiReduction (F := Ideal) .add [1] S400 E 0x00000000#32 h hφ hacc (ix1 r) = ∑ j : Fin 16, E (ix2 r j) := by
  refine (Ideal.multiReduction_add_single E 0x00000000#32 h hφ hacc (ix1 r)).trans ?_
  show ∑ k : Fin 16, E (h.lift (ix1 r) k) = _
  exact Finset.sum_congr rfl fun k _ => congrArg E (lift_row h r k)

/-- The stable log-softmax as the body spells it, read at an entry. -/
theorem lsm_apply (T : FVec Ideal S400x16 .f32) (hr : S400x16.Reduces [1] S400) (hc : S400.ShapeCasts S400x1)
    (hb : S400x1.Broadcasts S400x16) (hφ : FKind.Formats .f32)
    (hM : (0xFF800000#32 : BitVec 32) = FKind.maximumf.neutral .f32 hφ)
    (hA : (0x00000000#32 : BitVec 32) = FKind.add.neutral .f32 hφ) (r : Fin 400) (c : Fin 16) :
    subf T (broadcastTo S400x16
      (addf (log (shapeCast S400x1
          (multiReduction (F := Ideal) .add [1] S400
            (exp (subf T (broadcastTo S400x16
              (shapeCast S400x1 (multiReduction (F := Ideal) .maximumf [1] S400 T 0xFF800000#32 hr hφ hM) hc) hb)))
            0x00000000#32 hr hφ hA) hc))
        (shapeCast S400x1 (multiReduction (F := Ideal) .maximumf [1] S400 T 0xFF800000#32 hr hφ hM) hc)) hb) (ix2 r c)
      = Cert.GcnSpec.logSoftmax T (ix2 r c) := by
  have hMr : ∀ r' : Fin 400, multiReduction (F := Ideal) .maximumf [1] S400 T 0xFF800000#32 hr hφ hM (ix1 r')
      = Cert.GcnSpec.rowMax T r' := fun r' => rowmax_apply T hr hφ hM r'
  generalize multiReduction (F := Ideal) .maximumf [1] S400 T 0xFF800000#32 hr hφ hM = Mx at hMr ⊢
  have hEr : ∀ j : Fin 16, exp (subf T (broadcastTo S400x16 (shapeCast S400x1 Mx hc) hb)) (ix2 r j)
      = Ideal.exp (T (ix2 r j) - Cert.GcnSpec.rowMax T r) := fun j => by
    show Ideal.exp (T (ix2 r j) - broadcastTo S400x16 (shapeCast S400x1 Mx hc) hb (ix2 r j)) = _
    rw [Cert.LibKeepdims.keepdims_apply, hMr]
  generalize exp (subf T (broadcastTo S400x16 (shapeCast S400x1 Mx hc) hb)) = E at hEr ⊢
  have hSr : multiReduction (F := Ideal) .add [1] S400 E 0x00000000#32 hr hφ hA (ix1 r) = ∑ j : Fin 16, E (ix2 r j) :=
    rowsum_apply E hr hφ hA r
  generalize multiReduction (F := Ideal) .add [1] S400 E 0x00000000#32 hr hφ hA = Sm at hSr ⊢
  show T (ix2 r c) - broadcastTo S400x16 (addf (log (shapeCast S400x1 Sm hc)) (shapeCast S400x1 Mx hc)) hb (ix2 r c) = _
  rw [Cert.LibKeepdims.broadcastTo_a1_ab_apply]
  show T (ix2 r c) - (Ideal.log (shapeCast S400x1 Sm hc (ix2 r (0 : Fin 1))) + shapeCast S400x1 Mx hc (ix2 r (0 : Fin 1))) = _
  rw [Cert.LibKeepdims.shapeCast_a_a1_apply, Cert.LibKeepdims.shapeCast_a_a1_apply, hSr, hMr, Cert.GcnSpec.logSoftmax_apply]
  unfold Cert.GcnSpec.rowLse
  rw [Finset.sum_congr rfl fun j _ => hEr j]

/-- The logits of a block of rows of the adjacency matrix, and their row-wise log-softmax. -/
theorem pay3_eq (v0 : FVec Ideal S400x10000 .f32) (v1 : FVec Ideal S10000x16 .f32) (v4 : FVec Ideal S1x16 .f32) :
    (k1_pay1 (F := Ideal) v0 v1 v4 : Arr 400 16) = Cert.GcnSpec.logSoftmax (Cert.Layers.affine v0 v1 v4) := by
  unfold k1_pay1
  dsimp only
  rw [shapeCast_self, shapeCast_self]
  have h1 : (matmul dot_S400x10000_S10000x16_S400x16_1_0_0_1_n_n none v0 v1 (constant S400x16 .f32 0x00000000#32) : Arr 400 16)
      = mm v0 v1 := Cert.LayerOps.matmul_zero_eq_mm none v0 v1
  rw [h1]
  have h2 : (addf (F := Ideal) (φ := .f32) (mm v0 v1) (broadcastTo S400x16 v4 broadcasts_S1x16_S400x16) : Arr 400 16)
      = Cert.Layers.affine v0 v1 v4 := Cert.LayerOps.addf_row (mm v0 v1) v4 broadcasts_S1x16_S400x16
  rw [h2]
  generalize Cert.Layers.affine v0 v1 v4 = T
  funext i
  rw [eq_ix2 i]
  exact lsm_apply T _ _ _ _ _ _ (i 0) (i 1)

end Cert.KernelSide

end
-- ==== Proof.KiValue.lean ====
/-
  From blocks to whole arrays: what the two launches leave in their output arrays, at the ideal values.

  Each launch walks 25 grid points; point `t` takes rows `400 t … 400 t + 399` of the adjacency matrix, the other inputs
  whole, and writes rows `400 t … 400 t + 399` of its output.  Every operation of the bodies is row-wise in the adjacency
  matrix, so the block a point writes is that block of rows of ONE function of the whole arrays: the hidden layer for
  the first launch, the row-wise log-softmax of the logits for the second.  The 25 blocks of 400 rows cover the
  10000 rows, so each output array ends holding that function.
-/
import proofs.«173850_g46162308498000_cont_sun_m_925_2_alg».proof.Proof.KiLaunch1
import proofs.«173850_g46162308498000_cont_sun_m_925_2_alg».proof.Proof.KiLaunch2
import proofs.«173850_g46162308498000_cont_sun_m_925_2_alg».proof.Proof.Payloads
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.GCN Cert.Layers Cert.KernelSide

variable (V : (c : Dev nD) → (b : Ref sig .tc) → Buf (Elt Ideal) ((c : Thread nD τ).loc b))

/-! ## The second launch -/

/-- The printed index maps of the second launch, decided over the grid: the first launch's result and the bias row are
    taken whole at every point; the adjacency matrix and the output move by one block of rows per point. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem lt1 (t : Fin cfg1.N) : t.val < 25 := lt_of_lt_of_eq t.isLt N_1

/-- The first launch's result, taken whole: the block is the array. -/
theorem iblk1_0_eq (c : Dev nD) (t : Fin cfg1.N) : (iblk1 V c 0 t : Vec Ideal S10000x16 .f32) = V c main_v1 := by
  funext y
  unfold iblk1
  rw [View.read_apply]
  show V c main_v1 (((cfg1.win 0).blk t).view.emb y) = V c main_v1 y
  obtain ⟨e0, e1, -⟩ := idx1 t
  refine congrArg (V c main_v1) (funext fun a => Fin.ext ?_)
  match a with
  | ⟨0, _⟩ => show win1_0.index t (0 : Fin 2) * 10000 + 1 * (y 0).val = (y 0).val; rw [e0]; omega
  | ⟨1, _⟩ => show win1_0.index t (1 : Fin 2) * 16 + 1 * (y 1).val = (y 1).val; rw [e1]; omega

/-- The bias row, taken whole. -/
theorem iblk1_1_eq (c : Dev nD) (t : Fin cfg1.N) : (iblk1 V c 1 t : Vec Ideal S1x16 .f32) = V c main_v2 := by
  funext y
  unfold iblk1
  rw [View.read_apply]
  show V c main_v2 (((cfg1.win 1).blk t).view.emb y) = V c main_v2 y
  obtain ⟨-, -, e0, e1, -⟩ := idx1 t
  refine congrArg (V c main_v2) (funext fun a => Fin.ext ?_)
  match a with
  | ⟨0, _⟩ => show win1_1.index t (0 : Fin 2) * 1 + 1 * (y 0).val = (y 0).val; rw [e0]; omega
  | ⟨1, _⟩ => show win1_1.index t (1 : Fin 2) * 16 + 1 * (y 1).val = (y 1).val; rw [e1]; omega

/-- The adjacency block at point `t` is rows `400 t … 400 t + 399` of the adjacency matrix. -/
theorem iblk1_2_apply (c : Dev nD) (t : Fin cfg1.N) (r : Fin 400) (d : Fin 10000) (hr : 400 * t.val + r.val < 10000) :
    (iblk1 V c 2 t : Vec Ideal S400x10000 .f32) (ix2 r d) = V c main_arg1 (ix2 ⟨400 * t.val + r.val, hr⟩ d) := by
  unfold iblk1
  rw [View.read_apply]
  show V c main_arg1 (((cfg1.win 2).blk t).view.emb (ix2 r d)) = V c main_arg1 (ix2 ⟨400 * t.val + r.val, hr⟩ d)
  obtain ⟨-, -, -, -, e0, e1, -⟩ := idx1 t
  refine congrArg (V c main_arg1) (funext fun a => Fin.ext ?_)
  match a with
  | ⟨0, _⟩ => show win1_2.index t (0 : Fin 2) * 400 + 1 * r.val = 400 * t.val + r.val; rw [e0]; omega
  | ⟨1, _⟩ => show win1_2.index t (1 : Fin 2) * 10000 + 1 * d.val = d.val; rw [e1]; omega

/-- The row of the whole arrays that row `r` of point `t`'s block is. -/
def rowAt (t : Nat) (ht : t < 25) (r : Fin 400) : Fin 10000 := ⟨400 * t + r.val, by have := r.isLt; omega⟩

/-- The log-softmax of the logits is row-wise in the adjacency matrix: computed from a block of its rows, it is that
    block of rows of the one computed from the whole matrix. -/
theorem lsm_block (A : Arr 10000 10000) (A' : Arr 400 10000) (S : Arr 10000 16) (b : Arr 1 16) (t : Nat) (ht : t < 25)
    (h : ∀ r d, A' (ix2 r d) = A (ix2 (rowAt t ht r) d)) (j : S400x16.Idx) (k : S10000x16.Idx)
    (hk0 : (k 0).val = 400 * t + (j 0).val) (hk1 : (k 1).val = (j 1).val) :
    Cert.GcnSpec.logSoftmax (affine A' S b) j = Cert.GcnSpec.logSoftmax (affine A S b) k := by
  have hk : k = ix2 (rowAt t ht (j 0)) (j 1) := funext fun a => Fin.ext (by
    match a with
    | ⟨0, _⟩ => exact hk0
    | ⟨1, _⟩ => exact hk1)
  rw [eq_ix2 j, hk]
  exact Cert.GcnSpec.logSoftmax_rows (rowAt t ht) _ _ (affine_rows (rowAt t ht) A A' S b h) (j 0) (j 1)

/-- What the second launch's output array ends holding. -/
def G1 (c : Dev nD) : Arr 10000 16 :=
  Cert.GcnSpec.logSoftmax (affine (V c main_arg1) (V c main_v1) (V c main_v2))

/-- What point `t` writes back is block `t` of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [iblk1_0_eq, iblk1_1_eq]
  have hp := pay3_eq (iblk1 V c 2 t) (V c main_v1) (V c main_v2)
  obtain ⟨-, -, -, -, -, -, e0, e1⟩ := idx1 t
  funext j
  show k1_pay1 (F := Ideal) (iblk1 V c 2 t) (V c main_v1) (V c main_v2) j = G1 V c (((cfg1.win 3).blk t).view.emb j)
  rw [hp]
  refine lsm_block (V c main_arg1) (iblk1 V c 2 t) (V c main_v1) (V c main_v2) t.val (lt1 t)
    (fun r d => iblk1_2_apply V c t r d _) j _ ?_ ?_
  · show win1_3.index t (0 : Fin 2) * 400 + 1 * (j 0).val = 400 * t.val + (j 0).val; rw [e0]; omega
  · show win1_3.index t (1 : Fin 2) * 16 + 1 * (j 1).val = (j 1).val; rw [e1]; omega

/-- An index of the output array is in point `t`'s block iff each coordinate is in the block's range on its axis. -/
theorem mem_blk1 (t : Fin cfg1.N) (i : S10000x16.Idx) :
    i ∈ ((cfg1.win 3).blk t).view.set ↔ ∀ a : Fin 2, win1_3.index t a * S400x16.size a ≤ (i a).val
      ∧ (i a).val < win1_3.index t a * S400x16.size a + S400x16.size a := by
  show i ∈ ((View.whole main_v3).slice (win1_3.rect t)).set ↔ _
  rw [View.set_slice_whole, Rect.mem_set_unit]
  exact Iff.rfl

/-- Every index of the output array is in some point's block: row `i` is in block `i / 400`. -/
theorem cover1 (i : S10000x16.Idx) : ∃ t : Fin cfg1.N, (cfg1.win 3).flush t = true ∧ i ∈ ((cfg1.win 3).blk t).view.set := by
  have hi0 : (i 0).val < 10000 := (i 0).isLt
  have hi1 : (i 1).val < 16 := (i 1).isLt
  have hN : cfg1.N = 25 := N_1
  refine ⟨⟨(i 0).val / 400, by rw [hN]; omega⟩, flush1_3 _, ?_⟩
  rw [mem_blk1]
  obtain ⟨-, -, -, -, -, -, e0, e1⟩ := idx1 ⟨(i 0).val / 400, by rw [hN]; omega⟩
  intro a
  match a with
  | ⟨0, _⟩ =>
    show win1_3.index _ (0 : Fin 2) * 400 ≤ (i 0).val ∧ (i 0).val < win1_3.index _ (0 : Fin 2) * 400 + 400
    rw [e0]; show (i 0).val / 400 * 400 ≤ (i 0).val ∧ (i 0).val < (i 0).val / 400 * 400 + 400; omega
  | ⟨1, _⟩ =>
    show win1_3.index _ (1 : Fin 2) * 16 ≤ (i 1).val ∧ (i 1).val < win1_3.index _ (1 : Fin 2) * 16 + 16
    rw [e1]; omega

/-- The second launch's output array ends holding the row-wise log-softmax of the logits of the whole arrays. -/
theorem final1_3 (c : Dev nD) : (dat1 (F := Ideal) V c).arrAt 3 cfg1.N
    = (Cert.GcnSpec.logSoftmax (Cert.Layers.affine (V c main_arg1) (V c main_v1) (V c main_v2)) : Arr 10000 16) :=
  (dat1 V c).arrAt_eq_of_cover 3 (G1 V c) (fun t _ => flushed1_eq V c t) cover1

/-! ## The first launch -/

/-- The printed index maps of the first launch, decided over the grid: the features, the two weight matrices and the
    bias row are taken whole at every point; the adjacency matrix and the output move by one block of rows per point. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 25 := lt_of_lt_of_eq t.isLt N_0

/-- The features, taken whole: the block is the array. -/
theorem iblk0_0_eq (c : Dev nD) (t : Fin cfg0.N) : (iblk0 V c 0 t : Vec Ideal S10000x128 .f32) = V c main_arg0 := by
  funext y
  unfold iblk0
  rw [View.read_apply]
  show V c main_arg0 (((cfg0.win 0).blk t).view.emb y) = V c main_arg0 y
  obtain ⟨e0, e1, -⟩ := idx0 t
  refine congrArg (V c main_arg0) (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The first weight matrix, taken whole. -/
theorem iblk0_1_eq (c : Dev nD) (t : Fin cfg0.N) : (iblk0 V c 1 t : Vec Ideal S128x16 .f32) = V c main_arg2 := by
  funext y
  unfold iblk0
  rw [View.read_apply]
  show V c main_arg2 (((cfg0.win 1).blk t).view.emb y) = V c main_arg2 y
  obtain ⟨-, -, e0, e1, -⟩ := idx0 t
  refine congrArg (V c main_arg2) (funext fun a => Fin.ext ?_)
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- The first bias as one row, taken whole. -/
theorem iblk0_2_eq (c : Dev nD) (t : Fin cfg0.N) : (iblk0 V c 2 t : Vec Ideal S1x16 .f32) = V c main_v0 := by
  funext y
  unfold iblk0
  rw [View.read_apply]
  show V c main_v0 (((cfg0.win 2).blk t).view.emb y) = V c main_v0 y
  obtain ⟨-, -, -, -, e0, e1, -⟩ := idx0 t
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 16 + 1 * (y 1).val = (y 1).val; rw [e1]; omega

/-- The second weight matrix, taken whole. -/
theorem iblk0_3_eq (c : Dev nD) (t : Fin cfg0.N) : (iblk0 V c 3 t : Vec Ideal S16x16 .f32) = V c main_arg4 := by
  funext y
  unfold iblk0
  rw [View.read_apply]
  show V c main_arg4 (((cfg0.win 3).blk t).view.emb y) = V c main_arg4 y
  obtain ⟨-, -, -, -, -, -, e0, e1, -⟩ := idx0 t
  refine congrArg (V c main_arg4) (funext fun a => Fin.ext ?_)
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega

/-- The adjacency block at point `t` is rows `400 t … 400 t + 399` of the adjacency matrix. -/
theorem iblk0_4_apply (c : Dev nD) (t : Fin cfg0.N) (r : Fin 400) (d : Fin 10000) (hr : 400 * t.val + r.val < 10000) :
    (iblk0 V c 4 t : Vec Ideal S400x10000 .f32) (ix2 r d) = V c main_arg1 (ix2 ⟨400 * t.val + r.val, hr⟩ d) := by
  unfold iblk0
  rw [View.read_apply]
  show V c main_arg1 (((cfg0.win 4).blk t).view.emb (ix2 r d)) = V c main_arg1 (ix2 ⟨400 * t.val + r.val, hr⟩ d)
  obtain ⟨-, -, -, -, -, -, -, -, e0, e1, -⟩ := idx0 t
  refine congrArg (V c main_arg1) (funext fun a => Fin.ext ?_)
  match a with
  | ⟨0, _⟩ => show win0_4.index t (0 : Fin 2) * 400 + 1 * r.val = 400 * t.val + r.val; rw [e0]; omega
  | ⟨1, _⟩ => show win0_4.index t (1 : Fin 2) * 10000 + 1 * d.val = d.val; rw [e1]; omega

/-- The hidden layer is row-wise in the adjacency matrix: computed from a block of its rows, it is that block of rows
    of the one computed from the whole matrix. -/
theorem hidden_block (A : Arr 10000 10000) (A' : Arr 400 10000) (S : Arr 10000 16) (b : Arr 1 16) (W : Arr 16 16)
    (t : Nat) (ht : t < 25) (h : ∀ r d, A' (ix2 r d) = A (ix2 (rowAt t ht r) d)) (j : S400x16.Idx) (k : S10000x16.Idx)
    (hk0 : (k 0).val = 400 * t + (j 0).val) (hk1 : (k 1).val = (j 1).val) :
    Cert.Layers.hidden A' S b W j = Cert.Layers.hidden A S b W k := by
  have hk : k = ix2 (rowAt t ht (j 0)) (j 1) := funext fun a => Fin.ext (by
    match a with
    | ⟨0, _⟩ => exact hk0
    | ⟨1, _⟩ => exact hk1)
  rw [eq_ix2 j, hk]
  exact hidden_rows (rowAt t ht) A A' S b W h (j 0) (j 1)

/-- What the first launch's output array ends holding. -/
def G0 (c : Dev nD) : Arr 10000 16 :=
  Cert.Layers.hidden (V c main_arg1) (mm (V c main_arg0) (V c main_arg2)) (V c main_v0) (V c main_arg4)

/-- What point `t` writes back is block `t` of `G0`. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5 S1
  rw [iblk0_0_eq, iblk0_1_eq, iblk0_2_eq, iblk0_3_eq]
  have hq := pay1_eq (V c main_arg0) (V c main_arg2)
  have hp := pay2_eq (iblk0 V c 4 t) (k0_pay1 (F := Ideal) (V c main_arg0) (V c main_arg2)) (V c main_v0) (V c main_arg4)
  obtain ⟨-, -, -, -, -, -, -, -, -, -, e0, e1⟩ := idx0 t
  funext j
  show k0_pay2 (F := Ideal) (iblk0 V c 4 t) (k0_pay1 (F := Ideal) (V c main_arg0) (V c main_arg2)) (V c main_v0)
      (V c main_arg4) j = G0 V c (((cfg0.win 5).blk t).view.emb j)
  rw [hp, hq]
  refine hidden_block (V c main_arg1) (iblk0 V c 4 t) (mm (V c main_arg0) (V c main_arg2)) (V c main_v0) (V c main_arg4)
    t.val (lt0 t) (fun r d => iblk0_4_apply V c t r d _) j _ ?_ ?_
  · show win0_5.index t (0 : Fin 2) * 400 + 1 * (j 0).val = 400 * t.val + (j 0).val; rw [e0]; omega
  · show win0_5.index t (1 : Fin 2) * 16 + 1 * (j 1).val = (j 1).val; rw [e1]; omega

/-- An index of the output array is in point `t`'s block iff each coordinate is in the block's range on its axis. -/
theorem mem_blk0 (t : Fin cfg0.N) (i : S10000x16.Idx) :
    i ∈ ((cfg0.win 5).blk t).view.set ↔ ∀ a : Fin 2, win0_5.index t a * S400x16.size a ≤ (i a).val
      ∧ (i a).val < win0_5.index t a * S400x16.size a + S400x16.size a := by
  show i ∈ ((View.whole main_v1).slice (win0_5.rect t)).set ↔ _
  rw [View.set_slice_whole, Rect.mem_set_unit]
  exact Iff.rfl

/-- Every index of the output array is in some point's block: row `i` is in block `i / 400`. -/
theorem cover0 (i : S10000x16.Idx) : ∃ t : Fin cfg0.N, (cfg0.win 5).flush t = true ∧ i ∈ ((cfg0.win 5).blk t).view.set := by
  have hi0 : (i 0).val < 10000 := (i 0).isLt
  have hi1 : (i 1).val < 16 := (i 1).isLt
  have hN : cfg0.N = 25 := N_0
  refine ⟨⟨(i 0).val / 400, by rw [hN]; omega⟩, flush0_5 _, ?_⟩
  rw [mem_blk0]
  obtain ⟨-, -, -, -, -, -, -, -, -, -, e0, e1⟩ := idx0 ⟨(i 0).val / 400, by rw [hN]; omega⟩
  intro a
  match a with
  | ⟨0, _⟩ =>
    show win0_5.index _ (0 : Fin 2) * 400 ≤ (i 0).val ∧ (i 0).val < win0_5.index _ (0 : Fin 2) * 400 + 400
    rw [e0]; show (i 0).val / 400 * 400 ≤ (i 0).val ∧ (i 0).val < (i 0).val / 400 * 400 + 400; omega
  | ⟨1, _⟩ =>
    show win0_5.index _ (1 : Fin 2) * 16 ≤ (i 1).val ∧ (i 1).val < win0_5.index _ (1 : Fin 2) * 16 + 16
    rw [e1]; omega

/-- The first launch's output array ends holding the hidden layer of the whole arrays. -/
theorem final0_5 (c : Dev nD) : (dat0 (F := Ideal) V c).arrAt 5 cfg0.N
    = (Cert.Layers.hidden (V c main_arg1) (mm (V c main_arg0) (V c main_arg2)) (V c main_v0) (V c main_arg4) : Arr 10000 16) :=
  (dat0 V c).arrAt_eq_of_cover 5 (G0 V c) (fun t _ => flushed0_eq V c t) cover0

end Cert.KernelIdeal.HandValue

end
-- ==== Proof.KiResult.lean ====
/-
  The kernel's result array as one function of the arguments: the second launch's blocks of rows reassemble to the
  row-wise log-softmax of `A · S₂ + b₂`, where `S₂`, the first launch's result, reassembles to
  `max (A · (X · W₁) + b₁, 0) · W₂`.
-/
import proofs.«173850_g46162308498000_cont_sun_m_925_2_alg».proof.Proof.KiEntry
import proofs.«173850_g46162308498000_cont_sun_m_925_2_alg».proof.Proof.KiValue
import proofs.«173850_g46162308498000_cont_sun_m_925_2_alg».proof.Proof.Spec

noncomputable section

namespace Cert.KernelIdeal.HandValue

open Cert.KernelIdeal Cert.KernelIdeal.Gen Cert.KernelIdeal.Hand
open Idealize.ShloMosaic Idealize.ShloMosaic.TcCoe Idealize.SL.Sem
open Cert.GCN Cert.Layers

variable (m : (ℓ : Loc nD τ sig) → Buf (Elt Ideal) ℓ) (ρ : Dev nD → PrngReg)

theorem result (c : Dev nD) :
    (dat1 (F := Ideal) (V3 m ρ) c).arrAt 3 cfg1.N
      = Cert.GcnSpec.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [final1_3 (V3 m ρ) c, V3_arg1 m ρ c, V3_v1 m ρ c, final0_5 (V1 m ρ) c, V1_arg0 m ρ c, V1_arg1 m ρ c, V1_arg2 m ρ c,
    V1_arg4 m ρ c, V1_v0 m ρ c, V3_v2 m ρ c]
  rfl

end Cert.KernelIdeal.HandValue

end
-- ==== Proof.RefForm.lean ====
/-
  The row-wise log-softmax in the arrangement the reference computes it: with `M'` the maximum of `-∞` and the greatest
  entry of the row, every entry is first shifted by `M'`, and from the shifted entry the logarithm of the sum of the
  exponentials of the row's shifted entries is subtracted: `(Z[r,c] - M') - log (∑ⱼ exp (Z[r,j] - M'))`.
-/
import proofs.«173850_g46162308498000_cont_sun_m_925_2_alg».proof.Proof.Spec

open scoped BigOperators

noncomputable section

namespace Cert.RefSide

open Idealize.ShloMosaic Idealize.ShloMosaic.ValueIdx Cert.GCN Cert.GcnSpec

/-- The reference's row maximum: the maximum of `-∞` and the fold of `max` from `-∞` over the row. -/
def refMax {n p : Nat} (T : Arr n p) (r : Fin n) : EReal := max ⊥ (rowMax T r)

/-- The reference's log-softmax: the shifted entry less the logarithm of the sum of the row's shifted exponentials. -/
def refForm {n p : Nat} (T : Arr n p) : Arr n p := fun i =>
  (T i - refMax T (i 0)) - Ideal.log (∑ j : Fin p, Ideal.exp (T (ix2 (i 0) j) - refMax T (i 0)))

theorem refForm_apply {n p : Nat} (T : Arr n p) (r : Fin n) (c : Fin p) :
    refForm T (ix2 r c) = (T (ix2 r c) - refMax T r) - Ideal.log (∑ j : Fin p, Ideal.exp (T (ix2 r j) - refMax T r)) := rfl

end Cert.RefSide

end
-- ==== Proof.RefValue.lean ====
/-
  The reference's result as a function of its six argument arrays, read at the ideal values.

  Its dense layers are the logits of the specification: every `dot_general` is the matrix product of its operands, a bias
  broadcast first to one row and then over all rows is added to every row, and the maximum with the broadcast scalar
  zero is the maximum with zero.  Its outlined log-softmax is the arrangement `refForm` of the logits: the reduction of a
  row by `maximum` from `-∞` is the fold of `max` from `-∞` over the row's columns; the reduction by `add` from zero is the
  sum over the row's columns; and a per-row vector viewed as a column and broadcast along the rows reads, at `(r, c)`,
  the vector at `r`.
-/
import Idealize.ShloMosaic.Lib.IdealHost
import proofs.«173850_g46162308498000_cont_sun_m_925_2_alg».proof.Proof.Gen.ReferenceIdeal
import proofs.«173850_g46162308498000_cont_sun_m_925_2_alg».proof.Proof.LibLayerOps
import proofs.«173850_g46162308498000_cont_sun_m_925_2_alg».proof.Proof.RefForm

open scoped BigOperators

noncomputable section

namespace Cert.RefSide

open Idealize.ShloMosaic Idealize.ShloMosaic.ValueIdx Cert.GCN Cert.Layers Cert.GcnSpec Cert.HostLayers
open Cert.ReferenceIdeal Cert.ReferenceIdeal.Gen

/-! ## The terms -/

/-- The reference's dense layers, as the operations compose them. -/
def logitsTerm (x : FVec Ideal S10000x128 .f32) (adj : FVec Ideal S10000x10000 .f32) (W1 : FVec Ideal S128x16 .f32)
    (b1 : FVec Ideal S16 .f32) (W2 : FVec Ideal S16x16 .f32) (b2 : FVec Ideal S16 .f32) : FVec Ideal S10000x16 .f32 :=
  (addf (Host.dotGeneral dot_S10000x10000_S10000x16_S10000x16_1_0_0_1_n_n none adj (Host.dotGeneral dot_S10000x16_S16x16_S10000x16_1_0_0_1_n_n none (maximumf (addf (Host.dotGeneral dot_S10000x10000_S10000x16_S10000x16_1_0_0_1_n_n none adj (Host.dotGeneral dot_S10000x128_S128x16_S10000x16_1_0_0_1_n_n none x W1)) (broadcastInDim S10000x16 ![0, 1] bcast_S1x16_S10000x16_0_1 (broadcastInDim S1x16 ![1] bcast_S16_S1x16_1 b1))) (broadcastInDim S10000x16 ![] bcast_S_S10000x16 (constant (F := Ideal) S_ .f32 0x00000000#32))) W2)) (broadcastInDim S10000x16 ![0, 1] bcast_S1x16_S10000x16_0_1 (broadcastInDim S1x16 ![1] bcast_S16_S1x16_1 b2)))

/-- The reference's vector of row maxima: the maximum of the `-∞` splat and the reduction of every row by `maximum`. -/
def rowMaxTerm (L : FVec Ideal S10000x16 .f32) : FVec Ideal S10000 .f32 :=
  (maximumf (broadcastInDim S10000 ![] bcast_S_S10000 (constant (F := Ideal) S_ .f32 0xFF800000#32)) (Host.reduce FloatOps.maximumf L (constant (F := Ideal) S_ .f32 0xFF800000#32) reducesTo_S10000x16_S10000_d1 h_S_))

/-- Every entry less its row's maximum, the vector of maxima viewed as a column and broadcast along the rows. -/
def shiftTerm (L : FVec Ideal S10000x16 .f32) : FVec Ideal S10000x16 .f32 :=
  (subf L (broadcastInDim S10000x16 ![0, 1] bcast_S10000x1_S10000x16_0_1 (broadcastInDim S10000x1 ![0] bcast_S10000_S10000x1_0 (rowMaxTerm L))))

/-- The outlined log-softmax: the shifted entries less the logarithm of the row sums of their exponentials. -/
def softmaxTerm (L : FVec Ideal S10000x16 .f32) : FVec Ideal S10000x16 .f32 :=
  subf (shiftTerm L) (broadcastInDim S10000x16 ![0, 1] bcast_S10000x1_S10000x16_0_1 (Host.log (broadcastInDim S10000x1 ![0] bcast_S10000_S10000x1_0 (Host.reduceAdd (Host.exp (shiftTerm L)) (constant (F := Ideal) S_ .f32 0x00000000#32) reducesTo_S10000x16_S10000_d1 h_S_))))

/-- The reference's whole result as a function of the six arguments. -/
def refTerm (x : FVec Ideal S10000x128 .f32) (adj : FVec Ideal S10000x10000 .f32) (W1 : FVec Ideal S128x16 .f32)
    (b1 : FVec Ideal S16 .f32) (W2 : FVec Ideal S16x16 .f32) (b2 : FVec Ideal S16 .f32) : FVec Ideal S10000x16 .f32 :=
  softmaxTerm (logitsTerm x adj W1 b1 W2 b2)

/-! ## The dense layers are the logits -/

theorem dot0_plain : dot_S10000x128_S128x16_S10000x16_1_0_0_1_n_n = DotDims.plain 10000 128 16 := rfl
theorem dot1_plain : dot_S10000x10000_S10000x16_S10000x16_1_0_0_1_n_n = DotDims.plain 10000 10000 16 := rfl
theorem dot2_plain : dot_S10000x16_S16x16_S10000x16_1_0_0_1_n_n = DotDims.plain 10000 16 16 := rfl

theorem logitsTerm_eq (x : FVec Ideal S10000x128 .f32) (adj : FVec Ideal S10000x10000 .f32) (W1 : FVec Ideal S128x16 .f32)
    (b1 : FVec Ideal S16 .f32) (W2 : FVec Ideal S16x16 .f32) (b2 : FVec Ideal S16 .f32) :
    (logitsTerm x adj W1 b1 W2 b2 : Arr 10000 16) = logits x adj W1 b1 W2 b2 := by
  unfold logitsTerm
  rw [hostDot_plain _ dot0_plain none x W1, hostDot_plain _ dot1_plain none adj (mm x W1), host_addRow _ b1 _ _,
    host_relu _ _, hostDot_plain _ dot2_plain none _ W2, hostDot_plain _ dot1_plain none adj _, host_addRow _ b2 _ _]
  rfl

/-! ## Columns: a per-row vector viewed as a column, and a column broadcast along the rows -/

/-- An `[n]` vector broadcast to a column `[n, 1]` reads, at `(r, 0)`, the vector at `r`. -/
theorem colView_apply {α : Type} {n : Nat} (v : (⟨1, ![n]⟩ : Shape).Idx → α)
    (h1 : (⟨1, ![n]⟩ : Shape).BroadcastsInDim ⟨2, ![n, 1]⟩ ![0]) (r : Fin n) :
    broadcastInDim ⟨2, ![n, 1]⟩ ![0] h1 v (ix2 r (0 : Fin 1)) = v (ix1 r) := by
  refine broadcastInDim_apply ![0] h1 v (ix2 r (0 : Fin 1)) (ix1 r) fun a => ?_
  match a with
  | ⟨0, _⟩ =>
    show r.val = if n = 1 then 0 else r.val
    split
    · have := r.isLt; omega
    · rfl

/-- A column `[n, 1]` broadcast along the rows to `[n, p]` reads, at `(r, c)`, the column at `(r, 0)`. -/
theorem colBcast_apply {α : Type} {n p : Nat} (v : (⟨2, ![n, 1]⟩ : Shape).Idx → α)
    (h2 : (⟨2, ![n, 1]⟩ : Shape).BroadcastsInDim ⟨2, ![n, p]⟩ ![0, 1]) (r : Fin n) (c : Fin p) :
    broadcastInDim ⟨2, ![n, p]⟩ ![0, 1] h2 v (ix2 r c) = v (ix2 r (0 : Fin 1)) := by
  refine broadcastInDim_apply ![0, 1] h2 v (ix2 r c) (ix2 r (0 : Fin 1)) fun a => ?_
  match a with
  | ⟨0, _⟩ =>
    show r.val = if n = 1 then 0 else r.val
    split
    · have := r.isLt; omega
    · rfl
  | ⟨1, _⟩ => rfl

/-! ## The two reductions of a row -/

/-- The `f32` word of `-∞` is the least extended real. -/
theorem ofBits_negInf : Ideal.ofBits .f32 0xFF800000#32 = ⊥ := by simp [Ideal.ofBits, Ideal.ieee]

/-- The result index `r` with column `k` put back is `(r, k)`. -/
theorem lift_row (h : S10000x16.Reduces [1] S10000) (r : Fin 10000) (k : Fin (S10000x16.size 1)) :
    h.lift (ix1 r) k = ix2 r (⟨k.val, k.isLt⟩ : Fin 16) := by
  funext a; apply Fin.ext
  fin_cases a <;> rfl

theorem reduces_rows : S10000x16.Reduces [1] S10000 := by decide

/-- The reduction of every row by `maximum` from `-∞`, at row `r`: the fold of `max` from `-∞` over the row's columns. -/
theorem hostRowMax_apply (L : FVec Ideal S10000x16 .f32) (r : Fin 10000) :
    Host.reduce FloatOps.maximumf L (constant (F := Ideal) S_ .f32 0xFF800000#32) reducesTo_S10000x16_S10000_d1 h_S_ (ix1 r) = rowMax L r := by
  rw [Host.reduce_eq_fold_single FloatOps.maximumf L _ reducesTo_S10000x16_S10000_d1 reduces_rows h_S_]
  have hf : (L ∘ reduces_rows.lift (ix1 r)) = fun k : Fin 16 => L (ix2 r k) :=
    funext fun k => congrArg L (lift_row reduces_rows r k)
  refine Eq.trans (congrArg (fun f : Fin 16 → EReal => Finset.fold max (Ideal.ofBits .f32 0xFF800000#32) f (Finset.univ : Finset (Fin 16))) hf) ?_
  rw [ofBits_negInf]
  rfl

/-- The reduction of every row by `add` from zero, at row `r`: the sum over the row's columns. -/
theorem hostRowSum_apply (E : FVec Ideal S10000x16 .f32) (r : Fin 10000) :
    Host.reduceAdd E (constant (F := Ideal) S_ .f32 0x00000000#32) reducesTo_S10000x16_S10000_d1 h_S_ (ix1 r) = ∑ j : Fin 16, E (ix2 r j) := by
  refine (hostReduceAdd_apply E _ reducesTo_S10000x16_S10000_d1 h_S_ (ix1 r)).trans ?_
  refine (Ideal.hostReduceAdd_single reducesTo_S10000x16_S10000_d1 reduces_rows E _ (ix1 r)).trans ?_
  have h0 : (constant (F := Ideal) S_ .f32 0x00000000#32) (Shape.Idx.first h_S_) = (0 : EReal) := Ideal.ofBits_zero_f32
  rw [h0, zero_add]
  exact Finset.sum_congr rfl fun k _ => congrArg E (lift_row reduces_rows r k)

/-! ## The outlined log-softmax, index by index -/

theorem rowMaxTerm_apply (L : FVec Ideal S10000x16 .f32) (r : Fin 10000) : rowMaxTerm L (ix1 r) = refMax L r := by
  show max (broadcastInDim S10000 ![] bcast_S_S10000 (constant (F := Ideal) S_ .f32 0xFF800000#32) (ix1 r))
      (Host.reduce FloatOps.maximumf L (constant (F := Ideal) S_ .f32 0xFF800000#32) reducesTo_S10000x16_S10000_d1 h_S_ (ix1 r)) = max ⊥ (rowMax L r)
  rw [hostRowMax_apply, broadcastInDim_scalar_apply]
  show max (Ideal.ofBits .f32 0xFF800000#32) (rowMax L r) = max ⊥ (rowMax L r)
  rw [ofBits_negInf]

theorem shiftTerm_apply (L : FVec Ideal S10000x16 .f32) (r : Fin 10000) (j : Fin 16) :
    shiftTerm L (ix2 r j) = L (ix2 r j) - refMax L r :=
  congrArg (fun z : EReal => L (ix2 r j) - z)
    ((colBcast_apply _ bcast_S10000x1_S10000x16_0_1 r j).trans
      ((colView_apply (rowMaxTerm L) bcast_S10000_S10000x1_0 r).trans (rowMaxTerm_apply L r)))

theorem softmaxTerm_apply (L : FVec Ideal S10000x16 .f32) (r : Fin 10000) (c : Fin 16) :
    softmaxTerm L (ix2 r c)
      = (L (ix2 r c) - refMax L r) - Ideal.log (∑ j : Fin 16, Ideal.exp (L (ix2 r j) - refMax L r)) := by
  have hsum : Host.reduceAdd (Host.exp (shiftTerm L)) (constant (F := Ideal) S_ .f32 0x00000000#32) reducesTo_S10000x16_S10000_d1 h_S_ (ix1 r)
      = ∑ j : Fin 16, Ideal.exp (L (ix2 r j) - refMax L r) :=
    (hostRowSum_apply (Host.exp (shiftTerm L)) r).trans
      (Finset.sum_congr rfl fun j _ => congrArg Ideal.exp (shiftTerm_apply L r j))
  have hlog : broadcastInDim S10000x16 ![0, 1] bcast_S10000x1_S10000x16_0_1
        (Host.log (broadcastInDim S10000x1 ![0] bcast_S10000_S10000x1_0
          (Host.reduceAdd (Host.exp (shiftTerm L)) (constant (F := Ideal) S_ .f32 0x00000000#32) reducesTo_S10000x16_S10000_d1 h_S_))) (ix2 r c)
      = Ideal.log (∑ j : Fin 16, Ideal.exp (L (ix2 r j) - refMax L r)) :=
    (colBcast_apply _ bcast_S10000x1_S10000x16_0_1 r c).trans
      (congrArg Ideal.log ((colView_apply _ bcast_S10000_S10000x1_0 r).trans hsum))
  exact congrArg₂ (fun a b : EReal => a - b) (shiftTerm_apply L r c) hlog

/-- The outlined log-softmax is the reference's arrangement of the row-wise log-softmax. -/
theorem softmaxTerm_eq (L : FVec Ideal S10000x16 .f32) : (softmaxTerm L : Arr 10000 16) = refForm L := by
  funext i
  rw [eq_ix2 i]
  exact (softmaxTerm_apply L (i 0) (i 1)).trans (refForm_apply L (i 0) (i 1)).symm

/-- The reference's result is the reference's arrangement of the log-softmax of the logits. -/
theorem refTerm_eq (x : FVec Ideal S10000x128 .f32) (adj : FVec Ideal S10000x10000 .f32) (W1 : FVec Ideal S128x16 .f32)
    (b1 : FVec Ideal S16 .f32) (W2 : FVec Ideal S16x16 .f32) (b2 : FVec Ideal S16 .f32) :
    (refTerm x adj W1 b1 W2 b2 : Arr 10000 16) = refForm (logits x adj W1 b1 W2 b2) :=
  (softmaxTerm_eq (logitsTerm x adj W1 b1 W2 b2)).trans (congrArg refForm (logitsTerm_eq x adj W1 b1 W2 b2))

end Cert.RefSide

end
-- ==== Proof.RefMath.lean ====
/-
  The two arrangements of the row-wise log-softmax agree when every entry is a real number.

  If every entry of a nonempty row is real, the row's greatest entry `M` is real, so the maximum of `-∞` and `M` is `M`.
  And for a real `M`, any `a` and any `L` of the extended reals, `a - (L + M) = (a - M) - L`: the negative of a sum with a
  real summand is the sum of the negatives, and addition is commutative and associative.
-/
import proofs.«173850_g46162308498000_cont_sun_m_925_2_alg».proof.Proof.RefForm

open scoped BigOperators

noncomputable section

namespace Cert.RefSide

open Idealize.ShloMosaic Idealize.ShloMosaic.ValueIdx Cert.GCN Cert.GcnSpec

/-- The greatest entry of a nonempty row of real numbers is a real number. -/
theorem rowMax_real {n p : Nat} (T : Arr n p) (hT : AllReal T) (hp : 0 < p) (r : Fin n) :
    ∃ M : ℝ, rowMax T r = (M : EReal) := by
  have hbot : rowMax T r ≠ ⊥ := by
    have h : ⊥ < rowMax T r := by
      unfold rowMax
      rw [Finset.lt_fold_max]
      obtain ⟨x, hx⟩ := hT (ix2 r (⟨0, hp⟩ : Fin p))
      exact Or.inr ⟨⟨0, hp⟩, Finset.mem_univ _, by rw [hx]; exact EReal.bot_lt_coe x⟩
    exact ne_of_gt h
  have htop : rowMax T r ≠ ⊤ := by
    have h : rowMax T r < ⊤ := by
      unfold rowMax
      rw [Finset.fold_max_lt]
      refine ⟨bot_lt_top, fun j _ => ?_⟩
      obtain ⟨x, hx⟩ := hT (ix2 r j)
      rw [hx]; exact EReal.coe_lt_top x
    exact ne_of_lt h
  exact ⟨(rowMax T r).toReal, (EReal.coe_toReal htop hbot).symm⟩

/-- Subtracting `L + M` is subtracting `M` and then `L`, for a real `M`. -/
theorem sub_add_real (a L : EReal) (M : ℝ) : a - (L + (M : EReal)) = (a - (M : EReal)) - L := by
  calc a - (L + (M : EReal)) = a + -(L + (M : EReal)) := sub_eq_add_neg _ _
    _ = a + (-L - (M : EReal)) := by
        rw [EReal.neg_add (Or.inr (EReal.coe_ne_top M)) (Or.inr (EReal.coe_ne_bot M))]
    _ = a + (-L + -(M : EReal)) := by rw [sub_eq_add_neg (-L)]
    _ = a + (-(M : EReal) + -L) := by rw [add_comm (-L)]
    _ = (a + -(M : EReal)) + -L := (add_assoc _ _ _).symm
    _ = (a - (M : EReal)) - L := by rw [← sub_eq_add_neg, ← sub_eq_add_neg]

/-- With every entry real and at least one column, the reference's arrangement is the specification's log-softmax. -/
theorem refForm_eq_logSoftmax {n p : Nat} (T : Arr n p) (hT : AllReal T) (hp : 0 < p) : refForm T = logSoftmax T := by
  funext i
  obtain ⟨M, hM⟩ := rowMax_real T hT hp (i 0)
  have hR : refMax T (i 0) = (M : EReal) := by
    unfold refMax; rw [hM]; exact max_eq_right bot_le
  show (T i - refMax T (i 0)) - Ideal.log (∑ j : Fin p, Ideal.exp (T (ix2 (i 0) j) - refMax T (i 0)))
      = T i - (Ideal.log (∑ j : Fin p, Ideal.exp (T (ix2 (i 0) j) - rowMax T (i 0))) + rowMax T (i 0))
  rw [hR, hM]
  exact (sub_add_real _ _ M).symm

end Cert.RefSide

end
-- ==== Proof.RefSide.lean ====
/-
  The reference's result is the specification's value.

  The result term of the reference's run is the composition of its operations applied to the launch contents of the six
  arguments; that composition is the reference's arrangement of the row-wise log-softmax of the logits; and when every
  logit is a real number that arrangement is the specification's log-softmax.
-/
import proofs.«173850_g46162308498000_cont_sun_m_925_2_alg».proof.Proof.RefRun
import proofs.«173850_g46162308498000_cont_sun_m_925_2_alg».proof.Proof.RefValue
import proofs.«173850_g46162308498000_cont_sun_m_925_2_alg».proof.Proof.RefMath

noncomputable section

namespace Cert.RefSide

open Cert.ReferenceIdeal Cert.ReferenceIdeal.Gen Idealize.ShloMosaic Idealize.ShloMosaic.TcCoe Idealize.SL.Sem
open Cert.GCN Cert.GcnSpec

/-- The result term of the reference's run is the composed term of the launch contents of the six arguments. -/
theorem res_eq_refTerm (m : (ℓ : Loc nD τ sig) → Buf (Elt Ideal) ℓ) (c : Dev nD) :
    Cert.ReferenceIdeal.ValueP.res_main_v12 m c
      = refTerm (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5)) := rfl

/-- With every logit a real number, the reference's result is the specification's value of the six arguments. -/
theorem ref_value (m : (ℓ : Loc nD τ sig) → Buf (Elt Ideal) ℓ) (c : Dev nD)
    (hT : AllReal (logits (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5)))) :
    Cert.ReferenceIdeal.ValueP.res_main_v12 m c
      = out (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5)) :=
  (res_eq_refTerm m c).trans
    ((refTerm_eq _ _ _ _ _ _).trans (refForm_eq_logSoftmax _ hT (by decide)))

end Cert.RefSide

end
-- ==== Proof.PreReal.lean ====
/-
  From the precondition to the finiteness of every input entry.

  The precondition is the conjunction, over the six input arrays, of "every entry's absolute value is below plus
  infinity".  On the extended reals the absolute value is the maximum of an entry and its negation, which is plus
  infinity exactly at the two infinities: so every entry of every input is a real number.
-/
import Idealize.ShloMosaic.Lib.ReduceAll
import Idealize.ShloMosaic.Lib.Pipeline.Value
import Idealize.ShloMosaic.Lib.ValueIdx
import Idealize.ShloMosaic.PureOps.Ideal.Laws
import proofs.«173850_g46162308498000_cont_sun_m_925_2_alg».proof.Pre_finite_inputs
import proofs.«173850_g46162308498000_cont_sun_m_925_2_alg».proof.Proof.Spec

noncomputable section

namespace Cert.KernelSide

open Cert.GcnSpec

open Idealize.ShloMosaic Idealize.ShloMosaic.ValueIdx Cert.Pre_finite_inputs

/-- The scalar shape has one index. -/
instance subsingleton_scalarIdx : Subsingleton S_.Idx := ⟨fun a b => funext fun d => d.elim0⟩

/-- The word of plus infinity. -/
theorem ofBits_inf : Ideal.ofBits .f32 0x7F800000#32 = ⊤ := by simp [Ideal.ofBits, Ideal.ieee]

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array: if "all entries have absolute value below plus infinity" came out true, every entry is real. -/
theorem allReal_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
          (cmpf .olt (Host.absf x) (broadcastInDim s ![] hb (constant (F := Ideal) S_ .f32 0x7F800000#32)))
          (constantI S_ 1 1#1) hr h0 ix0 = 1#1) :
    AllReal x := by
  intro i
  have hi := Host.reduce_andi_all _ _ hr h0 ix0 h i
  have hb' : broadcastInDim s ![] hb (constant (F := Ideal) S_ .f32 0x7F800000#32) i = Ideal.ofBits .f32 0x7F800000#32 :=
    broadcastInDim_apply ![] hb _ i ix0 (fun a => a.elim0)
  have hc : Ideal.cmp .olt (max (x i) (-(x i)))
      (broadcastInDim s ![] hb (constant (F := Ideal) S_ .f32 0x7F800000#32) i) = 1#1 := hi
  rw [hb'] at hc
  exact real_of_abs_lt_inf _ hc

variable [Cert.Pre_finite_inputs.Facts]

/-- The precondition says every entry of every input is a real number. -/
theorem allReal_of_pre (x : FVec Ideal S10000x128 .f32) (adj : FVec Ideal S10000x10000 .f32) (W1 : FVec Ideal S128x16 .f32)
    (b1 : FVec Ideal S16 .f32) (W2 : FVec Ideal S16x16 .f32) (b2 : FVec Ideal S16 .f32)
    (h : Cert.Pre_finite_inputs.fn (F := Ideal) x adj W1 b1 W2 b2 = fun _ => 1#1) :
    AllReal x ∧ AllReal adj ∧ AllReal W1 ∧ AllReal b1 ∧ AllReal W2 ∧ AllReal b2 := by
  have h0 := congrFun h ix0
  dsimp only [Cert.Pre_finite_inputs.fn, Cert.Pre_finite_inputs.fn_part1] at h0
  have e : ∀ (a b : IVec S_ 1), andi a b ix0 = IntOp.andi (a ix0) (b ix0) := fun _ _ => rfl
  simp only [e, IntOp.andi_eq_one] at h0
  obtain ⟨⟨⟨⟨⟨h1, h2⟩, h3⟩, h4⟩, h5⟩, h6⟩ := h0
  exact ⟨allReal_of_all x _ _ _ h1, allReal_of_all adj _ _ _ h2, allReal_of_all W1 _ _ _ h3,
    allReal_of_all b1 _ _ _ h4, allReal_of_all W2 _ _ _ h5, allReal_of_all b2 _ _ _ h6⟩

end Cert.KernelSide

end
-- ==== Proof.Finite.lean ====
/-
  Finiteness of the logits.

  Sums, products and maxima of real numbers are real numbers.  So when every entry of every input is a real number
  (neither infinity), so is every entry of a matrix product of two such arrays, of such an array with a row added to
  every row, and of its entrywise maximum with zero — hence every entry of the logits.
-/
import Mathlib.Data.EReal.Basic
import Mathlib.Algebra.BigOperators.Group.Finset.Basic
import proofs.«173850_g46162308498000_cont_sun_m_925_2_alg».proof.Proof.LibLayers
import proofs.«173850_g46162308498000_cont_sun_m_925_2_alg».proof.Proof.Spec

open scoped BigOperators

noncomputable section

namespace Cert.KernelSide

open Idealize.ShloMosaic Idealize.ShloMosaic.ValueIdx Cert.GCN Cert.Layers Cert.GcnSpec

/-- A finite sum of real numbers, taken in the extended reals, is a real number. -/
theorem sum_real {ι : Type} (s : Finset ι) (f : ι → EReal) (h : ∀ d ∈ s, ∃ r : ℝ, f d = (r : EReal)) :
    ∃ r : ℝ, ∑ d ∈ s, f d = (r : EReal) := by
  classical
  induction s using Finset.induction_on with
  | empty => exact ⟨0, by rw [Finset.sum_empty, EReal.coe_zero]⟩
  | insert a s ha ih =>
    obtain ⟨ra, hra⟩ := h a (Finset.mem_insert_self a s)
    obtain ⟨rs, hrs⟩ := ih fun d hd => h d (Finset.mem_insert_of_mem hd)
    exact ⟨ra + rs, by rw [Finset.sum_insert ha, hra, hrs, EReal.coe_add]⟩

/-- A matrix product of arrays of reals is an array of reals. -/
theorem mm_allReal {n k p : Nat} (A : Arr n k) (B : Arr k p) (hA : AllReal A) (hB : AllReal B) : AllReal (mm A B) := by
  intro i
  unfold mm
  refine sum_real _ _ fun d _ => ?_
  obtain ⟨a, ha⟩ := hA (ix2 (i 0) d)
  obtain ⟨b, hb⟩ := hB (ix2 d (i 1))
  exact ⟨a * b, by rw [ha, hb, EReal.coe_mul]⟩

/-- Adding a row of reals to every row of an array of reals. -/
theorem addRow_allReal {n p : Nat} (X : Arr n p) (b : Arr 1 p) (hX : AllReal X) (hb : AllReal b) :
    AllReal (addRow X b) := by
  intro i
  obtain ⟨x, hx⟩ := hX i
  obtain ⟨y, hy⟩ := hb (ix2 (0 : Fin 1) (i 1))
  refine ⟨x + y, ?_⟩
  show X i + b (ix2 (0 : Fin 1) (i 1)) = _
  rw [hx, hy, EReal.coe_add]

/-- The maximum with zero of an array of reals. -/
theorem relu_allReal {n p : Nat} (X : Arr n p) (hX : AllReal X) : AllReal (relu X) := by
  intro i
  obtain ⟨x, hx⟩ := hX i
  refine ⟨max x 0, ?_⟩
  show max (X i) 0 = _
  rw [hx]
  exact (EReal.coe_strictMono.monotone.map_max (a := x) (b := 0)).symm

/-- A vector of reals laid out as one row. -/
theorem asRow_allReal {p : Nat} (b : Row p) (hb : AllReal b) : AllReal (asRow b) := fun i => hb (ix1 (i 1))

/-- Every entry of the logits is a real number when every entry of every input is. -/
theorem logits_allReal (x : Arr 10000 128) (adj : Arr 10000 10000) (W1 : Arr 128 16) (b1 : Row 16) (W2 : Arr 16 16)
    (b2 : Row 16) (hx : AllReal x) (hadj : AllReal adj) (hW1 : AllReal W1) (hb1 : AllReal b1) (hW2 : AllReal W2)
    (hb2 : AllReal b2) : AllReal (Cert.GcnSpec.logits x adj W1 b1 W2 b2) := by
  unfold Cert.GcnSpec.logits Cert.Layers.affine Cert.Layers.hidden
  exact addRow_allReal _ _
    (mm_allReal _ _ hadj
      (mm_allReal _ _
        (relu_allReal _ (addRow_allReal _ _ (mm_allReal _ _ hadj (mm_allReal _ _ hx hW1)) (asRow_allReal _ hb1)))
        hW2))
    (asRow_allReal _ hb2)

end Cert.KernelSide

end
-- ==== Proof.lean ====
/-
  The certificate's five claims, assembled.

  The kernel computes, in two gridded launches over blocks of 400 rows of the adjacency matrix `A`,
  `log_softmax (A · (max (A · (X · W₁) + b₁, 0) · W₂) + b₂)` row by row; the reference computes the same expression on whole
  arrays.  At the ideal values both matrix products are exact sums, the blocks of rows reassemble to the whole arrays,
  and the two spellings of the log-softmax — `t - (log Σ exp (t - M) + M)` and `(t - M) - log Σ exp (t - M)` with `M`
  the row's greatest entry — agree because every entry of the logits is a real number when the inputs are.
  The frames of the kernel (read at the words and at the ideal values) come from its run launch by launch: the first
  launch carries a scratch buffer holding `X · W₁` from its first grid point on; the reference's frame is its run.
-/
import proofs.«173850_g46162308498000_cont_sun_m_925_2_alg».proof.Defs
import proofs.«173850_g46162308498000_cont_sun_m_925_2_alg».proof.Proof.Gen.Kernel
import proofs.«173850_g46162308498000_cont_sun_m_925_2_alg».proof.Proof.Gen.KernelIdeal
import proofs.«173850_g46162308498000_cont_sun_m_925_2_alg».proof.Proof.Gen.ReferenceIdeal
import proofs.«173850_g46162308498000_cont_sun_m_925_2_alg».proof.Proof.Gen.Pre_finite_inputs
import proofs.«173850_g46162308498000_cont_sun_m_925_2_alg».proof.Proof.KbRun
import proofs.«173850_g46162308498000_cont_sun_m_925_2_alg».proof.Proof.KiRun
import proofs.«173850_g46162308498000_cont_sun_m_925_2_alg».proof.Proof.KiResult
import proofs.«173850_g46162308498000_cont_sun_m_925_2_alg».proof.Proof.RefSide
import proofs.«173850_g46162308498000_cont_sun_m_925_2_alg».proof.Proof.PreReal
import proofs.«173850_g46162308498000_cont_sun_m_925_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The same of the kernel read at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the result array at the one function `Cert.GcnSpec.out` of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.GcnSpec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HandValue.result m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    obtain ⟨r0, r1, r2, r3, r4, r5⟩ := Cert.KernelSide.allReal_of_pre _ _ _ _ _ _ (hpre c)
    refine (Cert.RefSide.ref_value m' c ?_).trans ?_
    · rw [h0, h1, h2, h3, h4, h5]
      exact Cert.KernelSide.logits_allReal _ _ _ _ _ _ r0 r1 r2 r3 r4 r5
    · rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
